-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512 : Shape := ⟨3, ![16, 512, 512]⟩
abbrev S16x512 : Shape := ⟨2, ![16, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel

variable [Facts]

def fn {F : FTy → Type} [FloatOps F] (main_arg0 : FVec F S16x512x512 .f32) (main_arg1 : IVec S16x512 32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  main_v3
-- ==== Kernel.lean ====
abbrev S16x512x512 : Shape := ⟨3, ![16, 512, 512]⟩
abbrev S16x512 : Shape := ⟨2, ![16, 512]⟩
abbrev S_ : Shape := ⟨0, ![]⟩
abbrev S16x1x512 : Shape := ⟨3, ![16, 1, 512]⟩
abbrev S16x4096x512 : Shape := ⟨3, ![16, 4096, 512]⟩
abbrev S1x1x512 : Shape := ⟨3, ![1, 1, 512]⟩
abbrev S1x512x512 : Shape := ⟨3, ![1, 512, 512]⟩
abbrev S1x2048x512 : Shape := ⟨3, ![1, 2048, 512]⟩
abbrev S512x512 : Shape := ⟨2, ![512, 512]⟩
abbrev S512 : Shape := ⟨1, ![512]⟩
abbrev S2048x512 : Shape := ⟨2, ![2048, 512]⟩
abbrev S1x512 : Shape := ⟨2, ![1, 512]⟩

abbrev nBuf : Space → Nat
  | .hbm => 10
  | .vmem => 12
  | .smem => 0
  | _ => 0

abbrev bufTy : (tb : Table) → Fin (tcTables nBuf tb) → BufTy
  | .hbm, ⟨0, _⟩ => ⟨S16x512x512, .f32⟩
  | .hbm, ⟨1, _⟩ => ⟨S16x512, .i32⟩
  | .hbm, ⟨2, _⟩ => ⟨S_, .i32⟩
  | .hbm, ⟨3, _⟩ => ⟨S_, .i32⟩
  | .hbm, ⟨4, _⟩ => ⟨S16x512, .i32⟩
  | .hbm, ⟨5, _⟩ => ⟨S16x512, .i32⟩
  | .hbm, ⟨6, _⟩ => ⟨S16x1x512, .i32⟩
  | .hbm, ⟨7, _⟩ => ⟨S16x1x512, .i32⟩
  | .hbm, ⟨8, _⟩ => ⟨S16x4096x512, .f32⟩
  | .hbm, ⟨9, _⟩ => ⟨S16x4096x512, .f32⟩
  | .local _ .vmem, ⟨0, _⟩ => ⟨S1x1x512, .i32⟩
  | .local _ .vmem, ⟨1, _⟩ => ⟨S1x1x512, .i32⟩
  | .local _ .vmem, ⟨2, _⟩ => ⟨S1x1x512, .i32⟩
  | .local _ .vmem, ⟨3, _⟩ => ⟨S1x1x512, .i32⟩
  | .local _ .vmem, ⟨4, _⟩ => ⟨S1x512x512, .f32⟩
  | .local _ .vmem, ⟨5, _⟩ => ⟨S1x512x512, .f32⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | .local _ .vmem, ⟨9, _⟩ => ⟨S1x2048x512, .f32⟩
  | .local _ .vmem, ⟨10, _⟩ => ⟨S512x512, .bf16⟩
  | .local _ .vmem, ⟨11, _⟩ => ⟨S512x512, .bf16⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S16x512_S16x1x512_0_2 : S16x512.BroadcastsInDim S16x1x512 (![0, 2] : Fin 2 → Fin S16x1x512.rank)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  iota_S2048x512_d0_w32 : S2048x512.Iotas .tc 32 [0]
  shapeCasts_S512_S1x512 : S512.ShapeCasts S1x512
  broadcasts_S1x512_S2048x512 : S1x512.Broadcasts S2048x512
  natLt_1_32 : 1 < 32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S16x1x512.size a
  hwx0_0 : ∀ i : grid0.Coords, EltTy.bits .i32 = 32 ∨ (Rect.block (s := S16x1x512) S1x1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .i32 = 32 ∨ (Rect.block (s := S16x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S16x512x512.size a
  hwx0_2 : ∀ i : grid0.Coords, EltTy.bits .f32 = 32 ∨ (Rect.block (s := S16x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S16x4096x512.size a
  hwx0_3 : ∀ i : grid0.Coords, EltTy.bits .f32 = 32 ∨ (Rect.block (s := S16x4096x512) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S16x4096x512.size a
  hwx0_4 : ∀ i : grid0.Coords, EltTy.bits .f32 = 32 ∨ (Rect.block (s := S16x4096x512) S1x2048x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v2) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x512x512 : Shape := ⟨3, ![16, 512, 512]⟩
abbrev S16x512 : Shape := ⟨2, ![16, 512]⟩
abbrev S_ : Shape := ⟨0, ![]⟩
abbrev S4096 : Shape := ⟨1, ![4096]⟩
abbrev S1x4096x1 : Shape := ⟨3, ![1, 4096, 1]⟩
abbrev S16x1x512 : Shape := ⟨3, ![16, 1, 512]⟩
abbrev S16x4096x512 : Shape := ⟨3, ![16, 4096, 512]⟩

abbrev nBuf : Space → Nat
  | .hbm => 19
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x512, .i32⟩
  | .hbm, ⟨2, _⟩ => ⟨S_, .i32⟩
  | .hbm, ⟨3, _⟩ => ⟨S_, .i32⟩
  | .hbm, ⟨4, _⟩ => ⟨S16x512, .i32⟩
  | .hbm, ⟨5, _⟩ => ⟨S16x512, .i32⟩
  | .hbm, ⟨6, _⟩ => ⟨S4096, .i32⟩
  | .hbm, ⟨7, _⟩ => ⟨S1x4096x1, .i32⟩
  | .hbm, ⟨8, _⟩ => ⟨S16x1x512, .i32⟩
  | .hbm, ⟨9, _⟩ => ⟨S16x4096x512, .i32⟩
  | .hbm, ⟨10, _⟩ => ⟨S16x4096x512, .i32⟩
  | .hbm, ⟨11, _⟩ => ⟨S16x4096x512, .i1⟩
  | .hbm, ⟨12, _⟩ => ⟨S16x1x512, .i32⟩
  | .hbm, ⟨13, _⟩ => ⟨S16x4096x512, .i32⟩
  | .hbm, ⟨14, _⟩ => ⟨S16x4096x512, .i32⟩
  | .hbm, ⟨15, _⟩ => ⟨S16x4096x512, .i1⟩
  | .hbm, ⟨16, _⟩ => ⟨S16x4096x512, .i1⟩
  | .hbm, ⟨17, _⟩ => ⟨S16x4096x512, .f32⟩
  | .hbm, ⟨18, _⟩ => ⟨S16x4096x512, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_c : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S4096_S1x4096x1_1 : S4096.BroadcastsInDim S1x4096x1 (![1] : Fin 1 → Fin S1x4096x1.rank)
  bcast_S16x512_S16x1x512_0_2 : S16x512.BroadcastsInDim S16x1x512 (![0, 2] : Fin 2 → Fin S16x1x512.rank)
  bcast_S1x4096x1_S16x4096x512_0_1_2 : S1x4096x1.BroadcastsInDim S16x4096x512 (![0, 1, 2] : Fin 3 → Fin S16x4096x512.rank)
  bcast_S16x1x512_S16x4096x512_0_1_2 : S16x1x512.BroadcastsInDim S16x4096x512 (![0, 1, 2] : Fin 3 → Fin S16x4096x512.rank)
  dot_S16x4096x512_S16x512x512_S16x4096x512_2_1_1_2_0_0_wf : DotDims.WF S16x4096x512 S16x512x512 S16x4096x512 [2] [1] [1] [2] [0] [0]

variable [Facts₀]

def dot_S16x4096x512_S16x512x512_S16x4096x512_2_1_1_2_0_0 : DotDims S16x4096x512 S16x512x512 S16x4096x512 where
  lhsContracting := [2]
  rhsContracting := [1]
  lhsNonContracting := [1]
  rhsNonContracting := [2]
  lhsBatch := [0]
  rhsBatch := [0]
  wf := dot_S16x4096x512_S16x512x512_S16x4096x512_2_1_1_2_0_0_wf

class Facts : Prop extends Facts₀ where

variable [Facts]
-- ==== Proof.KernelPieces.lean ====
/-
  What one run of the kernel body leaves behind, as values of what it loaded.

  The body has two cases.  At the first frame tile of a batch element it loads the element's embeddings, keeps them
  in the first scratch buffer and their difference with themselves in the second, and then — as at every tile — loads
  the starts and ends, stores the tile of the expansion matrix, and stores the product of that tile with the first
  scratch plus its product with the second.  At the second frame tile it only does the latter, with the scratch as the
  first tile left it.  Each buffer is written by one store that covers it whole, so its contents after the body are
  that store's value; a scratch read after it was stored in the same run reads the stored value.
-/
import proofs.«103358_j19825569038381_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the first scratch ends at the embeddings (re-laid as a matrix). -/
theorem scratch0_A (c : Dev nD) (i : grid0.Coords) (arg2 : Memref sig .tc .vmem S1x1x512 .i32) (harg2 : arg2.IsWhole) (arg3 : Memref sig .tc .vmem S1x1x512 .i32) (harg3 : arg3.IsWhole) (arg4 : Memref sig .tc .vmem S1x512x512 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole) (arg8 : Memref sig .tc .vmem S512x512 .bf16) (harg8 : arg8.IsWhole) (hc0 : cond0_0 i) (x0 : Vec F S1x1x512 .i32) (x1 : Vec F S1x1x512 .i32) (x2 : Vec F S1x512x512 .f32) :
    sout0_A_0 c i arg2 harg2 arg3 harg3 arg4 harg4 arg5 harg5 arg6 harg6 arg7 harg7 arg8 harg8 hc0 x0 x1 x2 = k0_pay2 x2 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg2.read_unread, harg3.read_unread, harg4.read_unread, harg7.read_unread, harg8.read_unread, View.ld_unit_zero (S := S1x1x512) hz3, View.ld_unit_zero (S := S1x512x512) hz3, View.ld_unit_zero (S := S512x512) hz2]

/-- First tile: the second scratch ends at the embeddings' difference with themselves. -/
theorem scratch1_A (c : Dev nD) (i : grid0.Coords) (arg2 : Memref sig .tc .vmem S1x1x512 .i32) (harg2 : arg2.IsWhole) (arg3 : Memref sig .tc .vmem S1x1x512 .i32) (harg3 : arg3.IsWhole) (arg4 : Memref sig .tc .vmem S1x512x512 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole) (arg8 : Memref sig .tc .vmem S512x512 .bf16) (harg8 : arg8.IsWhole) (hc0 : cond0_0 i) (x0 : Vec F S1x1x512 .i32) (x1 : Vec F S1x1x512 .i32) (x2 : Vec F S1x512x512 .f32) :
    sout0_A_1 c i arg2 harg2 arg3 harg3 arg4 harg4 arg5 harg5 arg6 harg6 arg7 harg7 arg8 harg8 hc0 x0 x1 x2 = k0_pay3 x2 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg2.read_unread, harg3.read_unread, harg4.read_unread, harg7.read_unread, harg8.read_unread, View.ld_unit_zero (S := S1x1x512) hz3, View.ld_unit_zero (S := S1x512x512) hz3, View.ld_unit_zero (S := S512x512) hz2]

/-- First tile: the matrix output's block is the tile of the expansion matrix. -/
theorem map_A (c : Dev nD) (i : grid0.Coords) (arg2 : Memref sig .tc .vmem S1x1x512 .i32) (harg2 : arg2.IsWhole) (arg3 : Memref sig .tc .vmem S1x1x512 .i32) (harg3 : arg3.IsWhole) (arg4 : Memref sig .tc .vmem S1x512x512 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole) (arg8 : Memref sig .tc .vmem S512x512 .bf16) (harg8 : arg8.IsWhole) (hc0 : cond0_0 i) (x0 : Vec F S1x1x512 .i32) (x1 : Vec F S1x1x512 .i32) (x2 : Vec F S1x512x512 .f32) :
    out0_A_4 c i arg2 harg2 arg3 harg3 arg4 harg4 arg5 harg5 arg6 harg6 arg7 harg7 arg8 harg8 hc0 x0 x1 x2 = k0_pay5 i x0 x1 := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readAt_eq_ld, harg2.read_unread, harg3.read_unread, harg4.read_unread, harg7.read_unread, harg8.read_unread, View.ld_unit_zero (S := S1x1x512) hz3, View.ld_unit_zero (S := S1x512x512) hz3, View.ld_unit_zero (S := S512x512) hz2]

/-- First tile: the frame output's block is the two products' sum, over the scratch just stored. -/
theorem ys_A (c : Dev nD) (i : grid0.Coords) (arg2 : Memref sig .tc .vmem S1x1x512 .i32) (harg2 : arg2.IsWhole) (arg3 : Memref sig .tc .vmem S1x1x512 .i32) (harg3 : arg3.IsWhole) (arg4 : Memref sig .tc .vmem S1x512x512 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole) (arg8 : Memref sig .tc .vmem S512x512 .bf16) (harg8 : arg8.IsWhole) (hc0 : cond0_0 i) (x0 : Vec F S1x1x512 .i32) (x1 : Vec F S1x1x512 .i32) (x2 : Vec F S1x512x512 .f32) :
    out0_A_3 c i arg2 harg2 arg3 harg3 arg4 harg4 arg5 harg5 arg6 harg6 arg7 harg7 arg8 harg8 hc0 x0 x1 x2 = k0_pay6 i x0 x1 (k0_pay2 x2) (k0_pay3 x2) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readCov_unit_zero (S := S512x512) _ hz2]
  simp only [View.readAt_eq_ld, harg2.read_unread, harg3.read_unread, harg4.read_unread, harg7.read_unread, harg8.read_unread, View.ld_unit_zero (S := S1x1x512) hz3, View.ld_unit_zero (S := S1x512x512) hz3, View.ld_unit_zero (S := S512x512) hz2]

/-- Second tile: the matrix output's block is the tile of the expansion matrix. -/
theorem map_B (c : Dev nD) (i : grid0.Coords) (arg2 : Memref sig .tc .vmem S1x1x512 .i32) (harg2 : arg2.IsWhole) (arg3 : Memref sig .tc .vmem S1x1x512 .i32) (harg3 : arg3.IsWhole) (arg4 : Memref sig .tc .vmem S1x512x512 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole) (arg8 : Memref sig .tc .vmem S512x512 .bf16) (harg8 : arg8.IsWhole) (hc0 : ¬cond0_0 i) (x0 : Vec F S1x1x512 .i32) (x1 : Vec F S1x1x512 .i32) (x2 : Vec F S1x512x512 .f32) (xs0 : Vec F S512x512 .bf16) (xs1 : Vec F S512x512 .bf16) :
    out0_B_4 c i arg2 harg2 arg3 harg3 arg4 harg4 arg5 harg5 arg6 harg6 arg7 harg7 arg8 harg8 hc0 x0 x1 x2 xs0 xs1 = k0_pay5 i x0 x1 := by
  unfold out0_B_4
  rw [View.read_writes_eq_canon _ _ _ (cover0_B_4 c i arg2 harg2 arg3 harg3 arg4 harg4 arg5 harg5 arg6 harg6 arg7 harg7 arg8 harg8 hc0 x0 x1 x2 xs0 xs1)]
  unfold kernelRun0_B
  dsimp only
  sl_unfold_words
  rw [View.canon_unit_zero hz3]
  simp only [View.readAt_eq_ld, harg2.read_unread, harg3.read_unread, harg4.read_unread, harg7.read_unread, harg8.read_unread, View.ld_unit_zero (S := S1x1x512) hz3, View.ld_unit_zero (S := S1x512x512) hz3, View.ld_unit_zero (S := S512x512) hz2]

/-- Second tile: the frame output's block is the two products' sum, over the scratch as it was found. -/
theorem ys_B (c : Dev nD) (i : grid0.Coords) (arg2 : Memref sig .tc .vmem S1x1x512 .i32) (harg2 : arg2.IsWhole) (arg3 : Memref sig .tc .vmem S1x1x512 .i32) (harg3 : arg3.IsWhole) (arg4 : Memref sig .tc .vmem S1x512x512 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S512x512 .bf16) (harg7 : arg7.IsWhole) (arg8 : Memref sig .tc .vmem S512x512 .bf16) (harg8 : arg8.IsWhole) (hc0 : ¬cond0_0 i) (x0 : Vec F S1x1x512 .i32) (x1 : Vec F S1x1x512 .i32) (x2 : Vec F S1x512x512 .f32) (xs0 : Vec F S512x512 .bf16) (xs1 : Vec F S512x512 .bf16) :
    out0_B_3 c i arg2 harg2 arg3 harg3 arg4 harg4 arg5 harg5 arg6 harg6 arg7 harg7 arg8 harg8 hc0 x0 x1 x2 xs0 xs1 = k0_pay6 i x0 x1 xs0 xs1 := by
  unfold out0_B_3
  rw [View.read_writes_eq_canon _ _ _ (cover0_B_3 c i arg2 harg2 arg3 harg3 arg4 harg4 arg5 harg5 arg6 harg6 arg7 harg7 arg8 harg8 hc0 x0 x1 x2 xs0 xs1)]
  unfold kernelRun0_B
  dsimp only
  sl_unfold_words
  rw [View.canon_unit_zero hz3]
  simp only [View.readAt_eq_ld, harg2.read_unread, harg3.read_unread, harg4.read_unread, harg7.read_unread, harg8.read_unread, View.ld_unit_zero (S := S1x1x512) hz3, View.ld_unit_zero (S := S1x512x512) hz3, View.ld_unit_zero (S := S512x512) hz2]

end Cert.KernelIdeal.Pieces

end
-- ==== Proof.Spec.lean ====
/-
  The length regulator, as mathematics.

  A batch element has 512 tokens with integer durations; token t owns the frames f with starts(t) ≤ f < ends(t),
  where ends is the running sum of the durations and starts = ends − duration (32-bit words compared as signed
  integers).  The expansion matrix has a 1 at (b, f, t) when frame f of batch b belongs to token t and a 0
  otherwise; the frame-level output is the matrix applied to the token embeddings: ys(b, f, d) = Σ_t map(b, f, t) ·
  xs(b, t, d), on the extended reals.

  The law that joins a two-term splitting to this single sum: if every embedding is a real number then
  xs − xs = 0, so Σ_t m·xs + Σ_t m·(xs − xs) = Σ_t m·xs.
-/
import Idealize.ShloMosaic.PureOps.Ideal
import Idealize.ShloMosaic.PureOps.Ideal.Laws
import Idealize.ShloMosaic.Lib.ValueIdx

noncomputable section

open scoped BigOperators

namespace Cert.LengthReg

open Idealize.ShloMosaic Idealize.ShloMosaic.ValueIdx

/-- The shapes: durations [16, 512], embeddings [16, 512, 512], both outputs [16, 4096, 512]. -/
abbrev Sd : Shape := ⟨2, ![16, 512]⟩
abbrev Sx : Shape := ⟨3, ![16, 512, 512]⟩
abbrev So : Shape := ⟨3, ![16, 4096, 512]⟩
abbrev S0 : Shape := ⟨0, ![]⟩

/-- The running sum of the durations along the token axis, as both programs print it: a window of 512 positions
    ending at the token, the positions before the first token holding the initial value 0. -/
def endsOf (hb : S0.BroadcastsInDim S0 (![] : Fin 0 → Fin S0.rank))
    (hw : Sd.ReduceWindows (![1, 512] : Fin 2 → Nat) ![1, 1] ![0, 511] ![0, 0] Sd) (h0 : 0 < S0.numel)
    (d : IVec Sd 32) : IVec Sd 32 :=
  Host.reduceWindow IntOp.addi ![1, 512] ![1, 1] ![0, 511] ![0, 0] d
    (broadcastInDim S0 ![] hb (constantI S0 32 0#32)) hw h0

/-- A token's first frame: its end minus its duration. -/
def startsOf (hb : S0.BroadcastsInDim S0 (![] : Fin 0 → Fin S0.rank))
    (hw : Sd.ReduceWindows (![1, 512] : Fin 2 → Nat) ![1, 1] ![0, 511] ![0, 0] Sd) (h0 : 0 < S0.numel)
    (d : IVec Sd 32) : IVec Sd 32 :=
  subi (endsOf hb hw h0 d) d

/-- Frame number `f` (as a 32-bit word) lies in the token's range [s, e), compared signed. -/
def bit (s e f : BitVec 32) : BitVec 1 :=
  IntOp.andi (IntOp.cmpi .sge f s) (IntOp.cmpi .slt f e)

/-- The expansion matrix at (b, f, t): 1 when frame f of batch b belongs to token t, else 0. -/
def mapAt (st en : IVec Sd 32) (b : Fin 16) (f : Fin 4096) (t : Fin 512) : EReal :=
  (((bit (st (ix2 b t)) (en (ix2 b t)) (BitVec.ofNat 32 f.val)).toNat : ℝ) : EReal)

/-- The frame-level output at (b, f, d): the matrix row applied to column d of the batch's embeddings. -/
def ysAt (st en : IVec Sd 32) (x : FVec Ideal Sx .f32) (b : Fin 16) (f : Fin 4096) (d : Fin 512) : EReal :=
  ∑ t : Fin 512, mapAt st en b f t * x (ix3 b t d)

/-- Both as whole arrays. -/
def mapG (st en : IVec Sd 32) : FVec Ideal So .f32 := fun i => mapAt st en (i 0) (i 1) (i 2)
def ysG (st en : IVec Sd 32) (x : FVec Ideal Sx .f32) : FVec Ideal So .f32 := fun i => ysAt st en x (i 0) (i 1) (i 2)

theorem mapG_ix3 (st en : IVec Sd 32) (b : Fin 16) (f : Fin 4096) (t : Fin 512) :
    mapG st en (ix3 b f t) = mapAt st en b f t := rfl

theorem ysG_ix3 (st en : IVec Sd 32) (x : FVec Ideal Sx .f32) (b : Fin 16) (f : Fin 4096) (d : Fin 512) :
    ysG st en x (ix3 b f d) = ysAt st en x b f d := rfl

/-- A one-bit word widened to 32 bits and read as a signed integer is the bit read as a natural number. -/
theorem toInt_setWidth_bit (b : BitVec 1) : (((b.setWidth 32).toInt : ℤ) : ℝ) = ((b.toNat : ℕ) : ℝ) := by
  rcases BitVec.eq_zero_or_eq_one b with h | h <;> subst h <;> norm_num <;> rfl

/-- For a real number z read as an extended real, z − z = 0. -/
theorem sub_self_coe (z : ℝ) : ((z : ℝ) : EReal) - ((z : ℝ) : EReal) = 0 := by
  rw [← EReal.coe_sub, sub_self, EReal.coe_zero]

/-- THE LAW. When every entry of the column is a real number, a matrix row applied to the column plus the same row
    applied to the column's difference with itself is the row applied to the column. -/
theorem split_sum_eq {ι : Type} [Fintype ι] (w x : ι → EReal) (hx : ∀ t, x t = (((x t).toReal : ℝ) : EReal)) :
    (∑ t, w t * x t) + (∑ t, w t * (x t - x t)) = ∑ t, w t * x t := by
  have h0 : ∀ t, w t * (x t - x t) = 0 := fun t => by
    rw [hx t, sub_self_coe, mul_zero]
  rw [Finset.sum_congr rfl (fun t _ => h0 t), Finset.sum_const_zero, add_zero]

end Cert.LengthReg

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibFrameAxis.lean ====
/-
  Layout operations around a frame axis and a per-token row, read at an entry; for any extents and element type.

  * A [1, 1, a] array cast to a vector [a]; that vector re-laid as one row [1, a] and repeated over n rows [n, a]
    (how a kernel spreads a per-token row block over the rows of a tile): the entry (r, t) is the block's (0, 0, t).
  * broadcast_in_dim of a vector [N] along the middle axis of [1, N, 1], and of [1, N, 1] over [B, N, K] (how a host
    program spreads a counter 0 … N−1 over a batch axis and a trailing axis): the entry (b, f, t) is the vector's f.
-/
import Idealize.ShloMosaic.Lib.ValueIdx
import Idealize.ShloMosaic.Lib.ValueLayout
import Idealize.ShloMosaic.Lib.Pipeline.Value

noncomputable section

namespace Cert.Lib.FrameAxis

open Idealize.ShloMosaic Idealize.ShloMosaic.ValueIdx

variable {α : Type}

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- A [1, 1, a] block re-laid as one row and repeated over n rows reads, at (r, t), the block's (0, 0, t). -/
theorem row_apply {n a : ℕ} (v : (⟨3, ![1, 1, a]⟩ : Shape).Idx → α) (r : Fin n) (t : Fin a)
    (h1 : (⟨3, ![1, 1, a]⟩ : Shape).ShapeCasts ⟨1, ![a]⟩) (h2 : (⟨1, ![a]⟩ : Shape).ShapeCasts ⟨2, ![1, a]⟩)
    (h3 : (⟨2, ![1, a]⟩ : Shape).Broadcasts ⟨2, ![n, a]⟩) :
    broadcastTo ⟨2, ![n, a]⟩ (shapeCast ⟨2, ![1, a]⟩ (shapeCast ⟨1, ![a]⟩ v h1) h2) h3 (ix2 r t)
      = v (ix3 (0 : Fin 1) (0 : Fin 1) t) :=
  (broadcastTo_1b_ab_apply _ h3 r t).trans ((shapeCast_a_1a_apply _ h2 0 t).trans (shapeCast_11a_a_apply v h1 t))

/-- A vector [N] laid along the middle axis of [1, N, 1]. -/
theorem bcast_n_1n1 {N : Nat} (dims : Fin 1 → Fin 3) (h0 : dims 0 = 1)
    (h : (⟨1, ![N]⟩ : Shape).BroadcastsInDim ⟨3, ![1, N, 1]⟩ dims) (v : (⟨1, ![N]⟩ : Shape).Idx → α)
    (u : Fin 1) (f : Fin N) (w : Fin 1) : broadcastInDim ⟨3, ![1, N, 1]⟩ dims h v (ix3 u f w) = v (ix1 f) := by
  refine broadcastInDim_apply dims h v (ix3 u f w) (ix1 f) fun a => ?_
  match a with
  | ⟨0, _⟩ =>
    show f.val = if N = 1 then 0 else (ix3 u f w (dims 0)).val
    rw [h0]
    split
    · have := f.isLt; omega
    · rfl

/-- [1, N, 1] repeated over the two unit axes of [B, N, K]. -/
theorem bcast_1n1_bnk {B N K : Nat} (dims : Fin 3 → Fin 3) (h0 : dims 0 = 0) (h1 : dims 1 = 1) (h2 : dims 2 = 2)
    (h : (⟨3, ![1, N, 1]⟩ : Shape).BroadcastsInDim ⟨3, ![B, N, K]⟩ dims) (v : (⟨3, ![1, N, 1]⟩ : Shape).Idx → α)
    (b : Fin B) (f : Fin N) (t : Fin K) :
    broadcastInDim ⟨3, ![B, N, K]⟩ dims h v (ix3 b f t) = v (ix3 (0 : Fin 1) f (0 : Fin 1)) := by
  refine broadcastInDim_apply dims h v (ix3 b f t) (ix3 (0 : Fin 1) f (0 : Fin 1)) fun a => ?_
  match a with
  | ⟨0, _⟩ => rfl
  | ⟨1, _⟩ =>
    show f.val = if N = 1 then 0 else (ix3 b f t (dims 1)).val
    rw [h1]
    split
    · have := f.isLt; omega
    · rfl
  | ⟨2, _⟩ => rfl

/-- The two together: a vector [N] spread over [B, N, K] reads, at (b, f, t), its entry f. -/
theorem bcast_n_bnk {B N K : Nat} (dims₁ : Fin 1 → Fin 3) (g0 : dims₁ 0 = 1)
    (dims₂ : Fin 3 → Fin 3) (h0 : dims₂ 0 = 0) (h1 : dims₂ 1 = 1) (h2 : dims₂ 2 = 2)
    (h₁ : (⟨1, ![N]⟩ : Shape).BroadcastsInDim ⟨3, ![1, N, 1]⟩ dims₁)
    (h₂ : (⟨3, ![1, N, 1]⟩ : Shape).BroadcastsInDim ⟨3, ![B, N, K]⟩ dims₂) (v : (⟨1, ![N]⟩ : Shape).Idx → α)
    (b : Fin B) (f : Fin N) (t : Fin K) :
    broadcastInDim ⟨3, ![B, N, K]⟩ dims₂ h₂ (broadcastInDim ⟨3, ![1, N, 1]⟩ dims₁ h₁ v) (ix3 b f t) = v (ix1 f) :=
  (bcast_1n1_bnk dims₂ h0 h1 h2 h₂ _ b f t).trans (bcast_n_1n1 dims₁ g0 h₁ v 0 f 0)

end Cert.Lib.FrameAxis

end
-- ==== Proof.KernelPayload.lean ====
/-
  The kernel body's arithmetic read at an index, on the extended reals.

  * The first scratch holds the batch element's embeddings: entry (p, q) is the loaded block's entry (0, p, q); the
    second scratch holds each embedding minus itself (a change of float format is the identity here).
  * Row r of frame tile fi is frame fi·2048 + r: the tile's base word plus the row counter is that number's word.
    The starts and ends arrive as [1, 1, 512] blocks, re-laid as one row and repeated over the 2048 rows, so the mask
    at (r, t) compares the frame with the block's entries (0, 0, t).
  * The matrix tile's entry is the mask bit as a number (widened to 32 bits and read signed, which for one bit is
    the bit itself).
  * The frame tile's entry (r, d) is the sum over tokens k of bit(r, k) times the first scratch's (k, d), plus the
    same sum against the second scratch: two plain matrix products into zero accumulators, added.
-/
import proofs.«103358_j19825569038381_2_alg».proof.Proof.Gen.KernelIdeal.Skeleton
import proofs.«103358_j19825569038381_2_alg».proof.Proof.Spec
import proofs.«103358_j19825569038381_2_alg».proof.Proof.LibMatmulNN
import proofs.«103358_j19825569038381_2_alg».proof.Proof.LibFrameAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Idealize.ShloMosaic Idealize.ShloMosaic.ValueIdx Cert.LengthReg

/-- The tile's base word plus the row counter is the frame number's word. -/
theorem frame_word (fi r : Nat) :
    IntOp.addi (Scalar.muli (BitVec.ofNat 32 fi) 2048#32) (BitVec.ofNat 32 (0 * 2048 + r)) = BitVec.ofNat 32 (fi * 2048 + r) := by
  show BitVec.ofNat 32 fi * BitVec.ofNat 32 2048 + BitVec.ofNat 32 (0 * 2048 + r) = _
  rw [Nat.zero_mul, Nat.zero_add, ← BitVec.ofNat_mul, ← BitVec.ofNat_add]

/-- The mask at row r of the tile and token t. -/
theorem pay4_apply (i : grid0.Coords) (v3 v5 : Vec Ideal S1x1x512 .i32) (r : Fin 2048) (t : Fin 512) :
    Gen.k0_pay4 (F := Ideal) i v3 v5 (ix2 r t)
      = bit (v3 (ix3 (0 : Fin 1) (0 : Fin 1) t)) (v5 (ix3 (0 : Fin 1) (0 : Fin 1) t))
          (BitVec.ofNat 32 ((i 1).val * 2048 + r.val)) := by
  unfold Gen.k0_pay4 bit
  dsimp only
  show IntOp.andi
      (IntOp.cmpi .sge (IntOp.addi (Scalar.muli (BitVec.ofNat 32 (i 1).val) 2048#32) (BitVec.ofNat 32 (0 * 2048 + r.val)))
        (broadcastTo S2048x512 (shapeCast S1x512 (shapeCast S512 v3 _) _) _ (ix2 r t)))
      (IntOp.cmpi .slt (IntOp.addi (Scalar.muli (BitVec.ofNat 32 (i 1).val) 2048#32) (BitVec.ofNat 32 (0 * 2048 + r.val)))
        (broadcastTo S2048x512 (shapeCast S1x512 (shapeCast S512 v5 _) _) _ (ix2 r t))) = _
  rw [frame_word, Cert.Lib.FrameAxis.row_apply v3 r t, Cert.Lib.FrameAxis.row_apply v5 r t]

/-- The matrix tile's entry: the mask bit as a number. -/
theorem pay5_apply (i : grid0.Coords) (v3 v5 : Vec Ideal S1x1x512 .i32) (u : Fin 1) (r : Fin 2048) (t : Fin 512) :
    Gen.k0_pay5 (F := Ideal) i v3 v5 (ix3 u r t)
      = (((Gen.k0_pay4 (F := Ideal) i v3 v5 (ix2 r t)).toNat : ℝ) : EReal) := by
  unfold Gen.k0_pay5
  refine (shapeCast_ab_1ab_apply _ _ u r t).trans ?_
  show ((((Gen.k0_pay4 (F := Ideal) i v3 v5 (ix2 r t)).setWidth 32).toInt : ℝ) : EReal) = _
  rw [toInt_setWidth_bit]

/-- The frame tile's entry: the mask row against column d of the first scratch, plus the same against the second. -/
theorem pay6_apply (i : grid0.Coords) (v3 v5 : Vec Ideal S1x1x512 .i32) (v26 v28 : FVec Ideal S512x512 .bf16)
    (u : Fin 1) (r : Fin 2048) (d : Fin 512) :
    Gen.k0_pay6 (F := Ideal) i v3 v5 v26 v28 (ix3 u r d)
      = (∑ k : Fin 512, (((Gen.k0_pay4 (F := Ideal) i v3 v5 (ix2 r k)).toNat : ℝ) : EReal) * v26 (ix2 k d))
        + (∑ k : Fin 512, (((Gen.k0_pay4 (F := Ideal) i v3 v5 (ix2 r k)).toNat : ℝ) : EReal) * v28 (ix2 k d)) := by
  unfold Gen.k0_pay6
  refine (shapeCast_ab_1ab_apply _ _ u r d).trans ?_
  refine (addf_apply _ _ _).trans ?_
  refine congrArg₂ (· + ·) ?_ ?_
  · refine (Cert.LibMatmulNN.matmul_zero_apply' (φ₂ := .bf16) _ rfl rfl rfl rfl rfl rfl none _ v26 r d).trans ?_
    refine Finset.sum_congr rfl fun k _ => ?_
    show ((((Gen.k0_pay4 (F := Ideal) i v3 v5 (ix2 r k)).setWidth 32).toInt : ℝ) : EReal) * _ = _
    rw [toInt_setWidth_bit]
  · refine (Cert.LibMatmulNN.matmul_zero_apply' (φ₂ := .bf16) _ rfl rfl rfl rfl rfl rfl none _ v28 r d).trans ?_
    refine Finset.sum_congr rfl fun k _ => ?_
    show ((((Gen.k0_pay4 (F := Ideal) i v3 v5 (ix2 r k)).setWidth 32).toInt : ℝ) : EReal) * _ = _
    rw [toInt_setWidth_bit]

/-- The first scratch's entry (p, q): the loaded block's (0, p, q). -/
theorem pay2_apply (x2 : Vec Ideal S1x512x512 .f32) (p q : Fin 512) :
    Gen.k0_pay2 (F := Ideal) x2 (ix2 p q) = x2 (ix3 (0 : Fin 1) p q) := by
  unfold Gen.k0_pay2 Gen.k0_pay1
  refine (congrFun (shapeCast_self _ _) _).trans ?_
  exact shapeCast_1ab_ab_apply x2 _ p q

/-- The second scratch's entry (p, q): that entry minus itself. -/
theorem pay3_apply (x2 : Vec Ideal S1x512x512 .f32) (p q : Fin 512) :
    Gen.k0_pay3 (F := Ideal) x2 (ix2 p q) = x2 (ix3 (0 : Fin 1) p q) - x2 (ix3 (0 : Fin 1) p q) := by
  unfold Gen.k0_pay3 Gen.k0_pay1
  refine (congrFun (shapeCast_self _ _) _).trans ?_
  show shapeCast S512x512 x2 _ (ix2 p q) - shapeCast S512x512 x2 _ (ix2 p q) = _
  rw [shapeCast_1ab_ab_apply x2 _ p q]

end Cert.KernelIdeal.Payload

end
-- ==== Proof.KernelPoint.lean ====
/-
  One grid point's two output tiles are tiles of the specification.

  Suppose the starts and ends blocks the body loads are rows of the batch element b's starts and ends, the grid
  point's frame-tile number is fi, and f = fi·2048 + r is the frame of row r.  Then the matrix tile's entry (r, t) is
  the specification's matrix at (b, f, t).  If moreover the first scratch holds the element's embeddings, the second
  holds each embedding minus itself, and every embedding is a real number, then the frame tile's entry (r, d) is the
  specification's output at (b, f, d): the second product vanishes term by term.
-/
import proofs.«103358_j19825569038381_2_alg».proof.Proof.KernelPayload

noncomputable section

open scoped BigOperators

namespace Cert.KernelIdeal.Point

open Cert.KernelIdeal Idealize.ShloMosaic Idealize.ShloMosaic.ValueIdx Cert.LengthReg Cert.KernelIdeal.Payload

/-- The mask bit at row r and token k, as a number, is the specification's matrix at the row's frame. -/
theorem bit_eq (i : grid0.Coords) (x0 x1 : Vec Ideal S1x1x512 .i32) (st en : IVec Sd 32) (b : Fin 16)
    (h0 : ∀ k : Fin 512, x0 (ix3 (0 : Fin 1) (0 : Fin 1) k) = st (ix2 b k))
    (h1 : ∀ k : Fin 512, x1 (ix3 (0 : Fin 1) (0 : Fin 1) k) = en (ix2 b k))
    (r : Fin 2048) (f : Fin 4096) (hf : f.val = (i 1).val * 2048 + r.val) (k : Fin 512) :
    (((Gen.k0_pay4 (F := Ideal) i x0 x1 (ix2 r k)).toNat : ℝ) : EReal) = mapAt st en b f k := by
  rw [pay4_apply, h0 k, h1 k, ← hf]
  rfl

/-- The matrix tile. -/
theorem map_point (i : grid0.Coords) (x0 x1 : Vec Ideal S1x1x512 .i32) (st en : IVec Sd 32) (b : Fin 16)
    (h0 : ∀ k : Fin 512, x0 (ix3 (0 : Fin 1) (0 : Fin 1) k) = st (ix2 b k))
    (h1 : ∀ k : Fin 512, x1 (ix3 (0 : Fin 1) (0 : Fin 1) k) = en (ix2 b k))
    (j : S1x2048x512.Idx) (f : Fin 4096) (hf : f.val = (i 1).val * 2048 + (j 1).val) :
    Gen.k0_pay5 (F := Ideal) i x0 x1 j = mapAt st en b f (j 2) := by
  obtain ⟨u, r, k, rfl⟩ : ∃ (u : Fin 1) (r : Fin 2048) (k : Fin 512), j = ix3 u r k := ⟨j 0, j 1, j 2, eq_ix3 j⟩
  rw [pay5_apply]
  exact bit_eq i x0 x1 st en b h0 h1 r f hf k

/-- The frame tile. -/
theorem ys_point (i : grid0.Coords) (x0 x1 : Vec Ideal S1x1x512 .i32) (xs0 xs1 : FVec Ideal S512x512 .bf16)
    (x : FVec Ideal Sx .f32) (st en : IVec Sd 32) (b : Fin 16)
    (h0 : ∀ k : Fin 512, x0 (ix3 (0 : Fin 1) (0 : Fin 1) k) = st (ix2 b k))
    (h1 : ∀ k : Fin 512, x1 (ix3 (0 : Fin 1) (0 : Fin 1) k) = en (ix2 b k))
    (hs0 : ∀ p q : Fin 512, xs0 (ix2 p q) = x (ix3 b p q))
    (hs1 : ∀ p q : Fin 512, xs1 (ix2 p q) = x (ix3 b p q) - x (ix3 b p q))
    (hx : ∀ p q : Fin 512, x (ix3 b p q) = (((x (ix3 b p q)).toReal : ℝ) : EReal))
    (j : S1x2048x512.Idx) (f : Fin 4096) (hf : f.val = (i 1).val * 2048 + (j 1).val) :
    Gen.k0_pay6 (F := Ideal) i x0 x1 xs0 xs1 j = ysAt st en x b f (j 2) := by
  obtain ⟨u, r, d, rfl⟩ : ∃ (u : Fin 1) (r : Fin 2048) (d : Fin 512), j = ix3 u r d := ⟨j 0, j 1, j 2, eq_ix3 j⟩
  rw [pay6_apply]
  unfold ysAt
  have e0 : (∑ k : Fin 512, (((Gen.k0_pay4 (F := Ideal) i x0 x1 (ix2 r k)).toNat : ℝ) : EReal) * xs0 (ix2 k d))
      = ∑ k : Fin 512, mapAt st en b f k * x (ix3 b k d) :=
    Finset.sum_congr rfl fun k _ => by rw [bit_eq i x0 x1 st en b h0 h1 r f hf k, hs0 k d]
  have e1 : (∑ k : Fin 512, (((Gen.k0_pay4 (F := Ideal) i x0 x1 (ix2 r k)).toNat : ℝ) : EReal) * xs1 (ix2 k d))
      = ∑ k : Fin 512, mapAt st en b f k * (x (ix3 b k d) - x (ix3 b k d)) :=
    Finset.sum_congr rfl fun k _ => by rw [bit_eq i x0 x1 st en b h0 h1 r f hf k, hs1 k d]
  rw [e0, e1]
  exact split_sum_eq (fun k => mapAt st en b f k) (fun k => x (ix3 b k d)) (fun k => hx k d)

end Cert.KernelIdeal.Point

end
-- ==== Proof.LibHostMid3.lean ====
/-
  Host operations over the MIDDLE axis of a rank-3 array, and a batched product contracting the last axis of the
  left operand against the middle axis of the right, read at an entry; for any extents.

  * broadcast_in_dim: an array [B, K] to [B, 1, K] (a unit middle axis inserted), and [B, 1, K] over [B, N, K]
    (the unit middle axis repeated N times).
  * A host reduction with a commutative and associative body over the middle axis of a rank-3 array, at (b, k): the
    fold of the body over the entries (b, n, k), n : Fin N, from the initial value.
  * The batched product with index pattern (b,m,t),(b,t,d) → (b,m,d): operands [B, M, T] and [B, T, D], result [B, M, D]; the batch axis is
    axis 0 of both, the contracted axes are the last of the left operand and the middle of the right. On the extended
    reals, at (b, i, j) it is the sum over t : Fin T of lhs (b, i, t) · rhs (b, t, j).
-/
import Idealize.ShloMosaic.Lib.ValueIdx
import Idealize.ShloMosaic.Lib.Pipeline.Value
import Idealize.ShloMosaic.PureOps.Ideal.Laws

noncomputable section

open scoped BigOperators

namespace Cert.Lib.HostMid3

open Idealize.ShloMosaic Idealize.ShloMosaic.ValueIdx

variable {α : Type}

/-! ## broadcast_in_dim -/

/-- [B, K] to [B, 1, K]: the operand's axes become axes 0 and 2, a unit axis sits between them. -/
theorem bcast_bk_b1k {B K : Nat} (dims : Fin 2 → Fin 3) (h0 : dims 0 = 0) (h1 : dims 1 = 2)
    (h : (⟨2, ![B, K]⟩ : Shape).BroadcastsInDim ⟨3, ![B, 1, K]⟩ dims) (v : (⟨2, ![B, K]⟩ : Shape).Idx → α)
    (b : Fin B) (u : Fin 1) (k : Fin K) : broadcastInDim ⟨3, ![B, 1, K]⟩ dims h v (ix3 b u k) = v (ix2 b k) := by
  refine broadcastInDim_apply dims h v (ix3 b u k) (ix2 b k) fun a => ?_
  match a with
  | ⟨0, _⟩ =>
    show b.val = if B = 1 then 0 else (ix3 b u k (dims 0)).val
    rw [h0]
    split
    · have := b.isLt; omega
    · rfl
  | ⟨1, _⟩ =>
    show k.val = if K = 1 then 0 else (ix3 b u k (dims 1)).val
    rw [h1]
    split
    · have := k.isLt; omega
    · rfl

/-- [B, 1, K] over [B, N, K]: the unit middle axis repeated. -/
theorem bcast_b1k_bnk {B N K : Nat} (dims : Fin 3 → Fin 3) (h0 : dims 0 = 0) (h1 : dims 1 = 1) (h2 : dims 2 = 2)
    (h : (⟨3, ![B, 1, K]⟩ : Shape).BroadcastsInDim ⟨3, ![B, N, K]⟩ dims) (v : (⟨3, ![B, 1, K]⟩ : Shape).Idx → α)
    (b : Fin B) (n : Fin N) (k : Fin K) :
    broadcastInDim ⟨3, ![B, N, K]⟩ dims h v (ix3 b n k) = v (ix3 b (0 : Fin 1) k) := by
  refine broadcastInDim_apply dims h v (ix3 b n k) (ix3 b (0 : Fin 1) k) fun a => ?_
  match a with
  | ⟨0, _⟩ =>
    show b.val = if B = 1 then 0 else (ix3 b n k (dims 0)).val
    rw [h0]
    split
    · have := b.isLt; omega
    · rfl
  | ⟨1, _⟩ => rfl
  | ⟨2, _⟩ =>
    show k.val = if K = 1 then 0 else (ix3 b n k (dims 2)).val
    rw [h2]
    split
    · have := k.isLt; omega
    · rfl

/-- The two together: an array [B, K] spread over the middle axis of [B, N, K] reads, at (b, n, k), the operand at
    (b, k). -/
theorem bcast_bk_bnk {B N K : Nat} (dims₁ : Fin 2 → Fin 3) (g0 : dims₁ 0 = 0) (g1 : dims₁ 1 = 2)
    (dims₂ : Fin 3 → Fin 3) (h0 : dims₂ 0 = 0) (h1 : dims₂ 1 = 1) (h2 : dims₂ 2 = 2)
    (h₁ : (⟨2, ![B, K]⟩ : Shape).BroadcastsInDim ⟨3, ![B, 1, K]⟩ dims₁)
    (h₂ : (⟨3, ![B, 1, K]⟩ : Shape).BroadcastsInDim ⟨3, ![B, N, K]⟩ dims₂) (v : (⟨2, ![B, K]⟩ : Shape).Idx → α)
    (b : Fin B) (n : Fin N) (k : Fin K) :
    broadcastInDim ⟨3, ![B, N, K]⟩ dims₂ h₂ (broadcastInDim ⟨3, ![B, 1, K]⟩ dims₁ h₁ v) (ix3 b n k) = v (ix2 b k) :=
  (bcast_b1k_bnk dims₂ h0 h1 h2 h₂ _ b n k).trans (bcast_bk_b1k dims₁ g0 g1 h₁ v b 0 k)

/-! ## A host reduction over the middle axis -/

/-- A host reduction with a commutative and associative body over the middle axis of a rank-3 array, at (b, k): the
    fold of the body over the entries (b, n, k), from the initial value. -/
theorem hostFold_mid3 {B N K : Nat} (f : α → α → α) [Std.Commutative f] [Std.Associative f]
    (x : (⟨3, ![B, N, K]⟩ : Shape).Idx → α) (init : (⟨0, ![]⟩ : Shape).Idx → α)
    (h' : (⟨3, ![B, N, K]⟩ : Shape).ReducesTo [1] ⟨2, ![B, K]⟩) (h : (⟨3, ![B, N, K]⟩ : Shape).Reduces [1] ⟨2, ![B, K]⟩)
    (hu : 0 < (⟨0, ![]⟩ : Shape).numel) (b : Fin B) (k : Fin K) :
    Host.reduce f x init h' hu (ix2 b k)
      = (Finset.univ : Finset (Fin N)).fold f (init (Shape.Idx.first hu)) (fun n => x (ix3 b n k)) := by
  rw [Host.reduce_eq_fold_single f x init h' h hu (ix2 b k)]
  refine Finset.fold_congr fun n _ => ?_
  show x (h.lift (ix2 b k) n) = x (ix3 b n k)
  refine congrArg x (funext fun c => Fin.ext ?_)
  match c with
  | ⟨0, _⟩ => rfl
  | ⟨1, _⟩ => rfl
  | ⟨2, _⟩ => rfl

/-! ## The batched product (b,m,t),(b,t,d) → (b,m,d) -/

section Dot

variable {B M T D : Nat} {φ₁ φ₂ : FTy}

/-- A rank-3 index read at a position known to be the first, second, third is that coordinate. -/
theorem ix3_val_zero {n0 n1 n2 : Nat} (a : Fin n0) (b : Fin n1) (c : Fin n2) (p : Nat) (hp : p < 3) (h : p = 0) :
    (ix3 a b c ⟨p, hp⟩).val = a.val := by subst h; rfl
theorem ix3_val_one {n0 n1 n2 : Nat} (a : Fin n0) (b : Fin n1) (c : Fin n2) (p : Nat) (hp : p < 3) (h : p = 1) :
    (ix3 a b c ⟨p, hp⟩).val = b.val := by subst h; rfl
theorem ix3_val_two {n0 n1 n2 : Nat} (a : Fin n0) (b : Fin n1) (c : Fin n2) (p : Nat) (hp : p < 3) (h : p = 2) :
    (ix3 a b c ⟨p, hp⟩).val = c.val := by subst h; rfl

/-- Of three axes, neither axis 1 nor axis 2 is the batch axis 0. -/
theorem one_not_mem_zero : (1 : Fin 3) ∉ ([0] : List (Fin 3)) := by decide
theorem two_not_mem_zero : (2 : Fin 3) ∉ ([0] : List (Fin 3)) := by decide

/-- One contracted axis: the contraction shape has rank one. -/
theorem bmt_contr_rank (d : DotDims ⟨3, ![B, M, T]⟩ ⟨3, ![B, T, D]⟩ ⟨3, ![B, M, D]⟩) (hlc : d.lhsContracting = [2]) :
    d.contr.rank = 1 := by
  rw [d.rank_contr, hlc]; rfl

/-- Its one extent is the left operand's last. -/
theorem bmt_contr_size (d : DotDims ⟨3, ![B, M, T]⟩ ⟨3, ![B, T, D]⟩ ⟨3, ![B, M, D]⟩) (hlc : d.lhsContracting = [2]) :
    d.contr.size ⟨0, by rw [bmt_contr_rank d hlc]; exact Nat.one_pos⟩ = T := by
  have h := d.size_contr 0 (by rw [hlc]; exact Nat.one_pos)
  rw [h]
  simp only [hlc, List.getElem_cons_zero]
  rfl

/-- The left operand's index at output (b, i, j) and contraction position t is (b, i, t). -/
theorem bmt_lhsIdx (d : DotDims ⟨3, ![B, M, T]⟩ ⟨3, ![B, T, D]⟩ ⟨3, ![B, M, D]⟩)
    (hlc : d.lhsContracting = [2]) (hln : d.lhsNonContracting = [1]) (hlb : d.lhsBatch = [0])
    (b : Fin B) (i : Fin M) (j : Fin D) (t : Fin T) :
    d.lhsIdx (ix3 b i j) ((contrEquiv1 d T (bmt_contr_rank d hlc) (bmt_contr_size d hlc)).symm t) = ix3 b i t := by
  funext ax
  apply Fin.ext
  match ax with
  | ⟨0, _⟩ =>
    show (d.lhsIdx (ix3 b i j) _ (0 : Fin 3)).val = b.val
    have hb : (0 : Fin 3) ∈ d.lhsBatch := by rw [hlb]; exact List.mem_singleton.mpr rfl
    unfold DotDims.lhsIdx
    rw [dif_pos hb]
    simp only [Fin.val_cast]
    exact ix3_val_zero b i j _ _ (by rw [hlb]; rfl)
  | ⟨1, _⟩ =>
    show (d.lhsIdx (ix3 b i j) _ (1 : Fin 3)).val = i.val
    have hnb : (1 : Fin 3) ∉ d.lhsBatch := by rw [hlb]; exact one_not_mem_zero
    have hn : (1 : Fin 3) ∈ d.lhsNonContracting := by rw [hln]; exact List.mem_singleton.mpr rfl
    unfold DotDims.lhsIdx
    rw [dif_neg hnb, dif_pos hn]
    simp only [Fin.val_cast]
    exact ix3_val_one b i j _ _ (by rw [hlb, hln]; rfl)
  | ⟨2, _⟩ =>
    show (d.lhsIdx (ix3 b i j) _ (2 : Fin 3)).val = t.val
    rw [DotDims.lhsIdx_val_of_single d hlc]
    exact contrEquiv1_symm_val d T (bmt_contr_rank d hlc) (bmt_contr_size d hlc) t

/-- The right operand's index there is (b, t, j). -/
theorem bmt_rhsIdx (d : DotDims ⟨3, ![B, M, T]⟩ ⟨3, ![B, T, D]⟩ ⟨3, ![B, M, D]⟩)
    (hlc : d.lhsContracting = [2]) (hrc : d.rhsContracting = [1]) (hln : d.lhsNonContracting = [1])
    (hrn : d.rhsNonContracting = [2]) (hlb : d.lhsBatch = [0]) (hrb : d.rhsBatch = [0])
    (b : Fin B) (i : Fin M) (j : Fin D) (t : Fin T) :
    d.rhsIdx (ix3 b i j) ((contrEquiv1 d T (bmt_contr_rank d hlc) (bmt_contr_size d hlc)).symm t) = ix3 b t j := by
  funext ax
  apply Fin.ext
  match ax with
  | ⟨0, _⟩ =>
    show (d.rhsIdx (ix3 b i j) _ (0 : Fin 3)).val = b.val
    have hb : (0 : Fin 3) ∈ d.rhsBatch := by rw [hrb]; exact List.mem_singleton.mpr rfl
    unfold DotDims.rhsIdx
    rw [dif_pos hb]
    simp only [Fin.val_cast]
    exact ix3_val_zero b i j _ _ (by rw [hrb]; rfl)
  | ⟨1, _⟩ =>
    show (d.rhsIdx (ix3 b i j) _ (1 : Fin 3)).val = t.val
    rw [DotDims.rhsIdx_val_of_single d hrc]
    exact contrEquiv1_symm_val d T (bmt_contr_rank d hlc) (bmt_contr_size d hlc) t
  | ⟨2, _⟩ =>
    show (d.rhsIdx (ix3 b i j) _ (2 : Fin 3)).val = j.val
    have hnb : (2 : Fin 3) ∉ d.rhsBatch := by rw [hrb]; exact two_not_mem_zero
    have hn : (2 : Fin 3) ∈ d.rhsNonContracting := by rw [hrn]; exact List.mem_singleton.mpr rfl
    unfold DotDims.rhsIdx
    rw [dif_neg hnb, dif_pos hn]
    simp only [Fin.val_cast]
    exact ix3_val_two b i j _ _ (by rw [hlb, hln, hrn]; rfl)

/-- THE BATCHED PRODUCT (b,m,t),(b,t,d) → (b,m,d) read at (b, i, j). -/
theorem bmt_apply (d : DotDims ⟨3, ![B, M, T]⟩ ⟨3, ![B, T, D]⟩ ⟨3, ![B, M, D]⟩)
    (hlc : d.lhsContracting = [2]) (hrc : d.rhsContracting = [1]) (hln : d.lhsNonContracting = [1])
    (hrn : d.rhsNonContracting = [2]) (hlb : d.lhsBatch = [0]) (hrb : d.rhsBatch = [0])
    (prec : Option ContractPrecision) (sched : HostSchedule)
    (lhs : FVec Ideal ⟨3, ![B, M, T]⟩ φ₁) (rhs : FVec Ideal ⟨3, ![B, T, D]⟩ φ₂) (b : Fin B) (i : Fin M) (j : Fin D) :
    FloatOps.dotGeneral d prec sched lhs rhs (ix3 b i j) = ∑ t : Fin T, lhs (ix3 b i t) * rhs (ix3 b t j) := by
  rw [Ideal.dotGeneral_apply]
  rw [← Equiv.sum_comp (contrEquiv1 d T (bmt_contr_rank d hlc) (bmt_contr_size d hlc)).symm]
  refine Finset.sum_congr rfl fun t _ => ?_
  rw [bmt_lhsIdx d hlc hln hlb b i j t, bmt_rhsIdx d hlc hrc hln hrn hlb hrb b i j t]

end Dot

end Cert.Lib.HostMid3

end
-- ==== Proof.KernelHost.lean ====
/-
  What the kernel's windows hold when the region is entered, and what each point's input blocks are.

  Before the call the program computes the running sum of the durations (the ends), subtracts the durations (the
  starts), and gives both a unit middle axis; the embeddings are passed as they are.  Grid point t works on batch
  element t / 2 and frame tile t % 2.  The starts, ends and embeddings blocks at point t are the batch element's
  rows of those arrays.
-/
import proofs.«103358_j19825569038381_2_alg».proof.Proof.Gen.KernelIdeal.Frame
import proofs.«103358_j19825569038381_2_alg».proof.Proof.LibHostMid3
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HostSide

open Cert.KernelIdeal Cert.KernelIdeal.Gen Idealize.ShloMosaic.StableHlo

variable {F : FTy → Type} [FloatOps F]
variable (m : (ℓ : Loc nD τ sig) → Buf (Elt F) ℓ)

/-- The running sum of the durations, as the kernel's program computes it before the call. -/
def kEnds (d : IVec S16x512 32) : IVec S16x512 32 :=
  Host.reduceWindow IntOp.addi ![1, 512] ![1, 1] ![0, 511] ![0, 0] d
    (broadcastInDim S_ ![] Gen.bcast_S_S_ (constantI S_ 32 0#32)) Gen.reduceWindows_S16x512_S16x512_w1s1p0_0_w512s1p511_0 Gen.h_S_

/-- Each token's first frame. -/
def kStarts (d : IVec S16x512 32) : IVec S16x512 32 := subi (kEnds d) d

attribute [local irreducible] Host.reduceWindow in
/-- When the region is entered, the first window's array holds the starts with a unit middle axis (the running sum
    kept folded: the equation never looks inside it). -/
theorem V_v2 (c : Dev nD) : (V m c main_v2 : S16x1x512.Idx → BitVec 32)
    = broadcastInDim S16x1x512 ![0, 2] Gen.bcast_S16x512_S16x1x512_0_2 (kStarts (m ((c : Thread nD τ).loc main_arg1))) := by
  unfold kStarts kEnds
  dsimp only [Gen.V]
  simp only [Gen.hostOps0, Gen.hostOps0_1, List.flatten_cons, List.flatten_nil, List.append_nil, List.cons_append, List.nil_append]
  after_results
  rfl

attribute [local irreducible] Host.reduceWindow in
/-- And the second window's array the ends. -/
theorem V_v3 (c : Dev nD) : (V m c main_v3 : S16x1x512.Idx → BitVec 32)
    = broadcastInDim S16x1x512 ![0, 2] Gen.bcast_S16x512_S16x1x512_0_2 (kEnds (m ((c : Thread nD τ).loc main_arg1))) := by
  unfold kEnds
  dsimp only [Gen.V]
  simp only [Gen.hostOps0, Gen.hostOps0_1, List.flatten_cons, List.flatten_nil, List.append_nil, List.cons_append, List.nil_append]
  after_results
  rfl

/-- The printed index maps over the 32 grid points: point t is batch element t / 2 and frame tile t % 2; the three
    input windows follow the batch element only, the two output windows both. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = t.val % 2 ∧ win0_4.index t (2 : Fin 3) = 0
    ∧ (grid0.coords t (1 : Fin 2)).val = t.val % 2 :=
  (by decide +kernel : ∀ t : Fin grid0.N, _)

/-- The starts block at point t is row b = t / 2 of the starts. -/
theorem iblk0_apply (c : Dev nD) (t : Fin cfg0.N) (b : Fin 16) (hb : b.val = t.val / 2) (k : Fin 512) :
    (iblk m c 0 t : Vec F S1x1x512 .i32) (ix3 (0 : Fin 1) (0 : Fin 1) k) = kStarts (m ((c : Thread nD τ).loc main_arg1)) (ix2 b k) := by
  obtain ⟨e00, e01, e02, -⟩ := idx_facts t
  unfold iblk
  rw [View.read_apply]
  show (V m c main_v2 : S16x1x512.Idx → BitVec 32) (((cfg0.win 0).blk t).view.emb (ix3 (0 : Fin 1) (0 : Fin 1) k)) = _
  rw [V_v2]
  have he : ((cfg0.win 0).blk t).view.emb (ix3 (0 : Fin 1) (0 : Fin 1) k) = ix3 b (0 : Fin 1) k := by
    funext a; apply Fin.ext
    match a with
    | ⟨0, _⟩ => show win0_0.index t (0 : Fin 3) * 1 + 1 * 0 = b.val; omega
    | ⟨1, _⟩ => show win0_0.index t (1 : Fin 3) * 1 + 1 * 0 = 0; omega
    | ⟨2, _⟩ => show win0_0.index t (2 : Fin 3) * 512 + 1 * k.val = k.val; omega
  rw [he]
  exact Cert.Lib.HostMid3.bcast_bk_b1k _ rfl rfl _ _ b 0 k

/-- The ends block at point t is row b = t / 2 of the ends. -/
theorem iblk1_apply (c : Dev nD) (t : Fin cfg0.N) (b : Fin 16) (hb : b.val = t.val / 2) (k : Fin 512) :
    (iblk m c 1 t : Vec F S1x1x512 .i32) (ix3 (0 : Fin 1) (0 : Fin 1) k) = kEnds (m ((c : Thread nD τ).loc main_arg1)) (ix2 b k) := by
  obtain ⟨-, -, -, e10, e11, e12, -⟩ := idx_facts t
  unfold iblk
  rw [View.read_apply]
  show (V m c main_v3 : S16x1x512.Idx → BitVec 32) (((cfg0.win 1).blk t).view.emb (ix3 (0 : Fin 1) (0 : Fin 1) k)) = _
  rw [V_v3]
  have he : ((cfg0.win 1).blk t).view.emb (ix3 (0 : Fin 1) (0 : Fin 1) k) = ix3 b (0 : Fin 1) k := by
    funext a; apply Fin.ext
    match a with
    | ⟨0, _⟩ => show win0_1.index t (0 : Fin 3) * 1 + 1 * 0 = b.val; omega
    | ⟨1, _⟩ => show win0_1.index t (1 : Fin 3) * 1 + 1 * 0 = 0; omega
    | ⟨2, _⟩ => show win0_1.index t (2 : Fin 3) * 512 + 1 * k.val = k.val; omega
  rw [he]
  exact Cert.Lib.HostMid3.bcast_bk_b1k _ rfl rfl _ _ b 0 k

/-- The embeddings block at point t is batch element b = t / 2 of the embeddings. -/
theorem iblk2_apply (c : Dev nD) (t : Fin cfg0.N) (b : Fin 16) (hb : b.val = t.val / 2) (p q : Fin 512) :
    (iblk m c 2 t : Vec F S1x512x512 .f32) (ix3 (0 : Fin 1) p q)
      = (m ((c : Thread nD τ).loc main_arg0) : S16x512x512.Idx → Elt F .f32) (ix3 b p q) := by
  obtain ⟨-, -, -, -, -, -, e20, e21, e22, -⟩ := idx_facts t
  unfold iblk
  rw [View.read_apply]
  show (V m c main_arg0 : S16x512x512.Idx → Elt F .f32) (((cfg0.win 2).blk t).view.emb (ix3 (0 : Fin 1) p q)) = _
  rw [V_main_arg0]
  have he : ((cfg0.win 2).blk t).view.emb (ix3 (0 : Fin 1) p q) = ix3 b p q := by
    funext a; apply Fin.ext
    match a with
    | ⟨0, _⟩ => show win0_2.index t (0 : Fin 3) * 1 + 1 * 0 = b.val; omega
    | ⟨1, _⟩ => show win0_2.index t (1 : Fin 3) * 512 + 1 * p.val = p.val; omega
    | ⟨2, _⟩ => show win0_2.index t (2 : Fin 3) * 512 + 1 * q.val = q.val; omega
  rw [he]

end Cert.KernelIdeal.HostSide

end
-- ==== Proof.KernelBlocks.lean ====
/-
  From grid points to whole arrays: the kernel's two outputs are the specification.

  Grid point t handles batch element b = t / 2 and frame tile t % 2.  The scratch buffers are stored at the even
  points and kept at the odd ones, so after every point the first holds element b's embeddings and the second holds
  each of them minus itself.  Hence at every point the matrix tile written back is the tile of the specification's
  matrix at rows (t % 2)·2048 … of element b, and — every embedding being a real number — the frame tile written back
  is the same tile of the specification's output.  The 32 tiles cover both output arrays: index (b, f, ·) lies in the
  tile of point 2b + f / 2048.
-/
import proofs.«103358_j19825569038381_2_alg».proof.Proof.Gen.KernelIdeal.Value
import proofs.«103358_j19825569038381_2_alg».proof.Proof.KernelPieces
import proofs.«103358_j19825569038381_2_alg».proof.Proof.KernelPoint
import proofs.«103358_j19825569038381_2_alg».proof.Proof.KernelHost
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.LengthReg Cert.KernelIdeal.HostSide
open Cert.KernelIdeal.Payload

variable (m : (ℓ : Loc nD τ sig) → Buf (Elt Ideal) ℓ) (ρ : Dev nD → PrngReg)

/-- The two arguments on core c: the durations and the embeddings. -/
abbrev dur (c : Dev nD) : IVec S16x512 32 := m ((c : Thread nD τ).loc main_arg1)
abbrev xs (c : Dev nD) : FVec Ideal S16x512x512 .f32 := m ((c : Thread nD τ).loc main_arg0)

/-- At an even point both scratch buffers are stored from the point's embeddings block. -/
theorem scratch_even (c : Dev nD) (t : Fin cfg0.N) (h0 : t.val % 2 = 0) :
    (outsAt0 m c t.val t.isLt).2.2.1 = k0_pay2 (iblk m c 2 t) ∧ (outsAt0 m c t.val t.isLt).2.2.2 = k0_pay3 (iblk m c 2 t) := by
  rw [outsAt0_A m c t h0]
  dsimp only
  exact ⟨Pieces.scratch0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t),
    Pieces.scratch1_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)⟩

/-- … so there the first holds the batch element's embeddings and the second each of them minus itself. -/
theorem scratch_even_apply (c : Dev nD) (t : Fin cfg0.N) (h0 : t.val % 2 = 0) (b : Fin 16) (hb : b.val = t.val / 2) :
    (∀ p q : Fin 512, ((outsAt0 m c t.val t.isLt).2.2.1 : FVec Ideal S512x512 .bf16) (ix2 p q) = xs m c (ix3 b p q))
    ∧ (∀ p q : Fin 512, ((outsAt0 m c t.val t.isLt).2.2.2 : FVec Ideal S512x512 .bf16) (ix2 p q)
        = xs m c (ix3 b p q) - xs m c (ix3 b p q)) := by
  obtain ⟨e0, e1⟩ := scratch_even m c t h0
  rw [e0, e1]
  exact ⟨fun p q => (pay2_apply _ p q).trans (iblk2_apply m c t b hb p q),
    fun p q => (pay3_apply _ p q).trans (by rw [iblk2_apply m c t b hb p q])⟩

/-- After EVERY point the scratch holds that: an odd point keeps what the even point before it stored, and both
    points work on the same batch element. -/
theorem scratch_at (c : Dev nD) (t : Fin cfg0.N) (b : Fin 16) (hb : b.val = t.val / 2) :
    (∀ p q : Fin 512, ((outsAt0 m c t.val t.isLt).2.2.1 : FVec Ideal S512x512 .bf16) (ix2 p q) = xs m c (ix3 b p q))
    ∧ (∀ p q : Fin 512, ((outsAt0 m c t.val t.isLt).2.2.2 : FVec Ideal S512x512 .bf16) (ix2 p q)
        = xs m c (ix3 b p q) - xs m c (ix3 b p q)) := by
  by_cases h0 : t.val % 2 = 0
  · exact scratch_even_apply m c t h0 b hb
  · have hN : t.val < 32 := lt_of_lt_of_eq t.isLt N_0
    have hlt : t.val - 1 < cfg0.N := Nat.lt_of_le_of_lt (Nat.sub_le _ _) t.isLt
    have h := scratch_even_apply m c ⟨t.val - 1, hlt⟩ (by show (t.val - 1) % 2 = 0; omega) b (by show b.val = (t.val - 1) / 2; omega)
    rw [outsAt0_B m c t h0]
    dsimp only [sout0_B_0, sout0_B_1]
    exact h

/-- The matrix tile a point leaves. -/
theorem map_at (c : Dev nD) (t : Fin cfg0.N) (b : Fin 16) (hb : b.val = t.val / 2) (j : S1x2048x512.Idx) (f : Fin 4096)
    (hf : f.val = (t.val % 2) * 2048 + (j 1).val) :
    ((outsAt0 m c t.val t.isLt).2.1 : FVec Ideal S1x2048x512 .f32) j
      = mapAt (kStarts (dur m c)) (kEnds (dur m c)) b f (j 2) := by
  obtain ⟨-, -, -, -, -, -, -, -, -, e30, e31, e32, e40, e41, e42, ec⟩ := idx_facts t
  have hf' : f.val = (grid0.coords t (1 : Fin 2)).val * 2048 + (j 1).val := by rw [ec]; exact hf
  by_cases h0 : t.val % 2 = 0
  · rw [outsAt0_A m c t h0]
    dsimp only
    refine (congrFun (Pieces.map_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)) j).trans ?_
    exact Point.map_point (grid0.coords t) (iblk m c 0 t) (iblk m c 1 t) (kStarts (dur m c)) (kEnds (dur m c)) b
      (iblk0_apply m c t b hb) (iblk1_apply m c t b hb) j f hf'
  · rw [outsAt0_B m c t h0]
    dsimp only
    refine (congrFun (Pieces.map_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.2.1 (outsAt0 m c (t.val - 1) (Nat.lt_of_le_of_lt (Nat.sub_le _ _) t.isLt)).2.2.2) j).trans ?_
    exact Point.map_point (grid0.coords t) (iblk m c 0 t) (iblk m c 1 t) (kStarts (dur m c)) (kEnds (dur m c)) b
      (iblk0_apply m c t b hb) (iblk1_apply m c t b hb) j f hf'

/-- The frame tile a point leaves, when every embedding is a real number. -/
theorem ys_at (c : Dev nD) (hx : ∀ i, xs m c i = (((xs m c i).toReal : ℝ) : EReal))
    (t : Fin cfg0.N) (b : Fin 16) (hb : b.val = t.val / 2) (j : S1x2048x512.Idx) (f : Fin 4096)
    (hf : f.val = (t.val % 2) * 2048 + (j 1).val) :
    ((outsAt0 m c t.val t.isLt).1 : FVec Ideal S1x2048x512 .f32) j
      = ysAt (kStarts (dur m c)) (kEnds (dur m c)) (xs m c) b f (j 2) := by
  obtain ⟨-, -, -, -, -, -, -, -, -, e30, e31, e32, e40, e41, e42, ec⟩ := idx_facts t
  have hf' : f.val = (grid0.coords t (1 : Fin 2)).val * 2048 + (j 1).val := by rw [ec]; exact hf
  by_cases h0 : t.val % 2 = 0
  · rw [outsAt0_A m c t h0]
    dsimp only
    refine (congrFun (Pieces.ys_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)) j).trans ?_
    exact Point.ys_point (grid0.coords t) (iblk m c 0 t) (iblk m c 1 t) (k0_pay2 (iblk m c 2 t)) (k0_pay3 (iblk m c 2 t))
      (xs m c) (kStarts (dur m c)) (kEnds (dur m c)) b (iblk0_apply m c t b hb) (iblk1_apply m c t b hb)
      (fun p q => (pay2_apply _ p q).trans (iblk2_apply m c t b hb p q))
      (fun p q => (pay3_apply _ p q).trans (by rw [iblk2_apply m c t b hb p q]))
      (fun p q => hx _) j f hf'
  · have hN : t.val < 32 := lt_of_lt_of_eq t.isLt N_0
    have hlt : t.val - 1 < cfg0.N := Nat.lt_of_le_of_lt (Nat.sub_le _ _) t.isLt
    obtain ⟨hs0, hs1⟩ := scratch_at m c ⟨t.val - 1, hlt⟩ b (by show b.val = (t.val - 1) / 2; omega)
    rw [outsAt0_B m c t h0]
    dsimp only
    refine (congrFun (Pieces.ys_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.2.1 (outsAt0 m c (t.val - 1) (Nat.lt_of_le_of_lt (Nat.sub_le _ _) t.isLt)).2.2.2) j).trans ?_
    exact Point.ys_point (grid0.coords t) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
      (xs m c) (kStarts (dur m c)) (kEnds (dur m c)) b (iblk0_apply m c t b hb) (iblk1_apply m c t b hb)
      hs0 hs1 (fun p q => hx _) j f hf'

/-- A tile's element j at point t sits at array index (t / 2, (t % 2)·2048 + j₁, j₂). -/
theorem spec_at_emb {β : Type} (g : Fin 16 → Fin 4096 → Fin 512 → β) (t : Fin cfg0.N) (w : Fin cfg0.W)
    (i : S16x4096x512.Idx) (j : S1x2048x512.Idx)
    (h0 : (i 0).val = t.val / 2) (h1 : (i 1).val = t.val % 2 * 2048 + (j 1).val) (h2 : (i 2).val = (j 2).val)
    (b : Fin 16) (hb : b.val = t.val / 2) (f : Fin 4096) (hf : f.val = t.val % 2 * 2048 + (j 1).val) :
    g b f (j 2) = g (i 0) (i 1) (i 2) := by
  have e0 : b = i 0 := Fin.ext (by rw [hb, h0])
  have e1 : f = i 1 := Fin.ext (by rw [hf, h1])
  have e2 : j 2 = i 2 := Fin.ext h2.symm
  rw [e0, e1, e2]

/-- WHAT POINT t WRITES BACK to the matrix output is the point's block of the specification's matrix. -/
theorem flushed4_eq (c : Dev nD) (t : Fin cfg0.N) :
    (dats m 0 c).flushed 4 t
      = ((cfg0.win 4).blk t).view.read (Elt Ideal) (mapG (kStarts (dur m c)) (kEnds (dur m c))) := by
  rw [Value.flushed4]
  obtain ⟨-, -, -, -, -, -, -, -, -, e30, e31, e32, e40, e41, e42, ec⟩ := idx_facts t
  have hN : t.val < 32 := lt_of_lt_of_eq t.isLt N_0
  funext j
  show ((outsAt0 m c t.val t.isLt).2.1 : FVec Ideal S1x2048x512 .f32) j
    = mapG (kStarts (dur m c)) (kEnds (dur m c)) (((cfg0.win 4).blk t).view.emb j)
  have hj0 : (j 0).val < 1 := (j 0).isLt
  have hj1 : (j 1).val < 2048 := (j 1).isLt
  refine (map_at m c t ⟨t.val / 2, by omega⟩ rfl j ⟨t.val % 2 * 2048 + (j 1).val, by omega⟩ rfl).trans ?_
  exact spec_at_emb (mapAt (kStarts (dur m c)) (kEnds (dur m c))) t 4 (((cfg0.win 4).blk t).view.emb j) j
    (by show win0_4.index t (0 : Fin 3) * 1 + 1 * (j 0).val = t.val / 2; omega)
    (by show win0_4.index t (1 : Fin 3) * 2048 + 1 * (j 1).val = t.val % 2 * 2048 + (j 1).val; omega)
    (by show win0_4.index t (2 : Fin 3) * 512 + 1 * (j 2).val = (j 2).val; omega)
    _ rfl _ rfl

/-- WHAT POINT t WRITES BACK to the frame output is the point's block of the specification's output. -/
theorem flushed3_eq (c : Dev nD) (hx : ∀ i, xs m c i = (((xs m c i).toReal : ℝ) : EReal)) (t : Fin cfg0.N) :
    (dats m 0 c).flushed 3 t
      = ((cfg0.win 3).blk t).view.read (Elt Ideal) (ysG (kStarts (dur m c)) (kEnds (dur m c)) (xs m c)) := by
  rw [Value.flushed3]
  obtain ⟨-, -, -, -, -, -, -, -, -, e30, e31, e32, e40, e41, e42, ec⟩ := idx_facts t
  have hN : t.val < 32 := lt_of_lt_of_eq t.isLt N_0
  funext j
  show ((outsAt0 m c t.val t.isLt).1 : FVec Ideal S1x2048x512 .f32) j
    = ysG (kStarts (dur m c)) (kEnds (dur m c)) (xs m c) (((cfg0.win 3).blk t).view.emb j)
  have hj0 : (j 0).val < 1 := (j 0).isLt
  have hj1 : (j 1).val < 2048 := (j 1).isLt
  refine (ys_at m c hx t ⟨t.val / 2, by omega⟩ rfl j ⟨t.val % 2 * 2048 + (j 1).val, by omega⟩ rfl).trans ?_
  exact spec_at_emb (ysAt (kStarts (dur m c)) (kEnds (dur m c)) (xs m c)) t 3 (((cfg0.win 3).blk t).view.emb j) j
    (by show win0_3.index t (0 : Fin 3) * 1 + 1 * (j 0).val = t.val / 2; omega)
    (by show win0_3.index t (1 : Fin 3) * 2048 + 1 * (j 1).val = t.val % 2 * 2048 + (j 1).val; omega)
    (by show win0_3.index t (2 : Fin 3) * 512 + 1 * (j 2).val = (j 2).val; omega)
    _ rfl _ rfl

/-- An index of an output array is in point t's block iff each coordinate is in the block's range on its axis. -/
theorem mem_blk4 (t : Fin cfg0.N) (i : S16x4096x512.Idx) :
    i ∈ ((cfg0.win 4).blk t).view.set ↔ ∀ a : Fin 3, win0_4.index t a * S1x2048x512.size a ≤ (i a).val
      ∧ (i a).val < win0_4.index t a * S1x2048x512.size a + S1x2048x512.size a := by
  show i ∈ ((View.whole main_v4_1).slice (win0_4.rect t)).set ↔ _
  rw [View.set_slice_whole, Rect.mem_set_unit]
  exact Iff.rfl

theorem mem_blk3 (t : Fin cfg0.N) (i : S16x4096x512.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v4_0).slice (win0_3.rect t)).set ↔ _
  rw [View.set_slice_whole, Rect.mem_set_unit]
  exact Iff.rfl

/-- The point whose blocks hold index (b, f, ·): 2b + f / 2048. -/
theorem point_of (i : S16x4096x512.Idx) : ∃ t : Fin cfg0.N, t.val = 2 * (i 0).val + (i 1).val / 2048 := by
  have h0 : (i 0).val < 16 := (i 0).isLt
  have h1 : (i 1).val < 4096 := (i 1).isLt
  exact ⟨⟨2 * (i 0).val + (i 1).val / 2048, by rw [show cfg0.N = 32 from N_0]; omega⟩, rfl⟩

/-- The 32 blocks cover the matrix output. -/
theorem cover4 (i : S16x4096x512.Idx) :
    ∃ t : Fin cfg0.N, (cfg0.win 4).flush t = true ∧ i ∈ ((cfg0.win 4).blk t).view.set := by
  have h0 : (i 0).val < 16 := (i 0).isLt
  have h1 : (i 1).val < 4096 := (i 1).isLt
  have h2 : (i 2).val < 512 := (i 2).isLt
  obtain ⟨t, ht⟩ := point_of i
  obtain ⟨-, -, -, -, -, -, -, -, -, e30, e31, e32, e40, e41, e42, ec⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 512 ≤ (i 2).val ∧ (i 2).val < win0_4.index t (2 : Fin 3) * 512 + 512; omega

/-- And the frame output. -/
theorem cover3 (i : S16x4096x512.Idx) :
    ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 512 := (i 2).isLt
  obtain ⟨t, ht⟩ := point_of i
  obtain ⟨-, -, -, -, -, -, -, -, -, e30, e31, e32, e40, e41, e42, ec⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- THE MATRIX OUTPUT after the run is the specification's matrix. -/
theorem final4 (c : Dev nD) : (dats m 0 c).arrAt 4 cfg0.N = mapG (kStarts (dur m c)) (kEnds (dur m c)) :=
  (dats m 0 c).arrAt_eq_of_cover 4 (mapG (kStarts (dur m c)) (kEnds (dur m c))) (fun t _ => flushed4_eq m c t) cover4

/-- THE FRAME OUTPUT after the run is the specification's output, when every embedding is a real number. -/
theorem final3 (c : Dev nD) (hx : ∀ i, xs m c i = (((xs m c i).toReal : ℝ) : EReal)) :
    (dats m 0 c).arrAt 3 cfg0.N = ysG (kStarts (dur m c)) (kEnds (dur m c)) (xs m c) :=
  (dats m 0 c).arrAt_eq_of_cover 3 (ysG (kStarts (dur m c)) (kEnds (dur m c)) (xs m c))
    (fun t _ => flushed3_eq m c hx t) cover3

/-- The kernel's run, read: both outputs at the specification of the arguments, the arguments unchanged. -/
theorem run (hx : ∀ c i, xs m c i = (((xs m c i).toReal : ℝ) : EReal)) :
    θ_run defs (onTc (τ := τ) (main (F := Ideal))) ⟨m, fun _ => 0, ρ⟩ fun r => ∀ c : Dev nD,
      r.2.mem ((c : Thread nD τ).loc main_v4_0) = ysG (kStarts (dur m c)) (kEnds (dur m c)) (xs m c)
      ∧ r.2.mem ((c : Thread nD τ).loc main_v4_1) = mapG (kStarts (dur m c)) (kEnds (dur m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c (hx c)), (h c).2.1.trans (final4 m c),
      (h c).2.2.1, (h c).2.2.2⟩)
    (Value.run_blocks m ρ)

end Cert.KernelIdeal.Blocks

end
-- ==== Proof.RefRun.lean ====
/-
  The reference program's run, read back.

  The reference is a straight line of seventeen host operations: the running sum of the durations (three operations,
  written in a function of their own which the program calls), the subtraction giving the starts, the frame counter
  0 … 4095 spread over the batch and token axes, the two comparisons and their conjunction, its conversion to a
  float, and the batched product with the embeddings.  Every weakly fair execution terminates with the two results at
  the composition of these operations applied to the two arguments, which stay as they were.
-/
import proofs.«103358_j19825569038381_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The running sum of the durations. -/
def ends (d : IVec S16x512 32) : IVec S16x512 32 :=
  Host.reduceWindow IntOp.addi ![1, 512] ![1, 1] ![0, 511] ![0, 0] d
    (broadcastInDim S_ ![] bcast_S_S_ (constantI S_ 32 0#32)) reduceWindows_S16x512_S16x512_w1s1p0_0_w512s1p511_0 h_S_

/-- Each token's first frame. -/
def starts (d : IVec S16x512 32) : IVec S16x512 32 := subi (ends d) d

/-- The frame counter spread over all three axes. -/
def frames : IVec S16x4096x512 32 :=
  broadcastInDim S16x4096x512 ![0, 1, 2] bcast_S1x4096x1_S16x4096x512_0_1_2
    (broadcastInDim S1x4096x1 ![1] bcast_S4096_S1x4096x1_1 (iotaInDim S4096 32 0))

/-- A per-token word spread over the frame axis. -/
def spread (v : IVec S16x512 32) : IVec S16x4096x512 32 :=
  broadcastInDim S16x4096x512 ![0, 1, 2] bcast_S16x1x512_S16x4096x512_0_1_2
    (broadcastInDim S16x1x512 ![0, 2] bcast_S16x512_S16x1x512_0_2 v)

/-- The expansion matrix as the reference computes it. -/
def refMap (d : IVec S16x512 32) : FVec F S16x4096x512 .f32 :=
  uitofp .f32 (andi (cmpi .sge frames (spread (starts d))) (cmpi .slt frames (spread (ends d))))

/-- The frame-level output as the reference computes it. -/
def refYs (x : FVec F S16x512x512 .f32) (d : IVec S16x512 32) : FVec F S16x4096x512 .f32 :=
  Host.dotGeneral dot_S16x4096x512_S16x512x512_S16x4096x512_2_1_1_2_0_0 none (refMap (F := F) d) x

/-- @main's seventeen operations, in order: the called function's three at the call site. -/
abbrev ops : List (HloOp τ sig (Elt F)) :=
  [ TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_arg1 : TRef sig ⟨S16x512, .i32⟩) (.of main_call0_call0_v0 : TRef sig ⟨S_, .i32⟩) (.of main_v0 : TRef sig ⟨S16x512, .i32⟩) (fun x v => Host.reduceWindow IntOp.addi ![1, 512] ![1, 1] ![0, 511] ![0, 0] x v reduceWindows_S16x512_S16x512_w1s1p0_0_w512s1p511_0 h_S_),
    binary main_v0 main_arg1 main_v1 (subi : (⟨S16x512, .i32⟩ : BufTy).Contents (Elt F) → (⟨S16x512, .i32⟩ : BufTy).Contents (Elt F) → (⟨S16x512, .i32⟩ : BufTy).Contents (Elt F)),
    nullary main_v2 (iotaInDim S4096 32 0),
    unary main_v2 main_v3 (broadcastInDim S1x4096x1 ![1] bcast_S4096_S1x4096x1_1 : (⟨S4096, .i32⟩ : BufTy).Contents (Elt F) → (⟨S1x4096x1, .i32⟩ : BufTy).Contents (Elt F)),
    unary main_v1 main_v4 (broadcastInDim S16x1x512 ![0, 2] bcast_S16x512_S16x1x512_0_2 : (⟨S16x512, .i32⟩ : BufTy).Contents (Elt F) → (⟨S16x1x512, .i32⟩ : BufTy).Contents (Elt F)),
    unary main_v3 main_v5 (broadcastInDim S16x4096x512 ![0, 1, 2] bcast_S1x4096x1_S16x4096x512_0_1_2 : (⟨S1x4096x1, .i32⟩ : BufTy).Contents (Elt F) → (⟨S16x4096x512, .i32⟩ : BufTy).Contents (Elt F)),
    unary main_v4 main_v6 (broadcastInDim S16x4096x512 ![0, 1, 2] bcast_S16x1x512_S16x4096x512_0_1_2 : (⟨S16x1x512, .i32⟩ : BufTy).Contents (Elt F) → (⟨S16x4096x512, .i32⟩ : BufTy).Contents (Elt F)),
    binary main_v5 main_v6 main_v7 (cmpi .sge : (⟨S16x4096x512, .i32⟩ : BufTy).Contents (Elt F) → (⟨S16x4096x512, .i32⟩ : BufTy).Contents (Elt F) → (⟨S16x4096x512, .i1⟩ : BufTy).Contents (Elt F)),
    unary main_v0 main_v8 (broadcastInDim S16x1x512 ![0, 2] bcast_S16x512_S16x1x512_0_2 : (⟨S16x512, .i32⟩ : BufTy).Contents (Elt F) → (⟨S16x1x512, .i32⟩ : BufTy).Contents (Elt F)),
    unary main_v3 main_v9 (broadcastInDim S16x4096x512 ![0, 1, 2] bcast_S1x4096x1_S16x4096x512_0_1_2 : (⟨S1x4096x1, .i32⟩ : BufTy).Contents (Elt F) → (⟨S16x4096x512, .i32⟩ : BufTy).Contents (Elt F)),
    unary main_v8 main_v10 (broadcastInDim S16x4096x512 ![0, 1, 2] bcast_S16x1x512_S16x4096x512_0_1_2 : (⟨S16x1x512, .i32⟩ : BufTy).Contents (Elt F) → (⟨S16x4096x512, .i32⟩ : BufTy).Contents (Elt F)),
    binary main_v9 main_v10 main_v11 (cmpi .slt : (⟨S16x4096x512, .i32⟩ : BufTy).Contents (Elt F) → (⟨S16x4096x512, .i32⟩ : BufTy).Contents (Elt F) → (⟨S16x4096x512, .i1⟩ : BufTy).Contents (Elt F)),
    binary main_v7 main_v11 main_v12 (andi : (⟨S16x4096x512, .i1⟩ : BufTy).Contents (Elt F) → (⟨S16x4096x512, .i1⟩ : BufTy).Contents (Elt F) → (⟨S16x4096x512, .i1⟩ : BufTy).Contents (Elt F)),
    unary main_v12 main_v13 (uitofp .f32 : (⟨S16x4096x512, .i1⟩ : BufTy).Contents (Elt F) → (⟨S16x4096x512, .f32⟩ : BufTy).Contents (Elt F)),
    binary main_v13 main_arg0 main_v14 ((fun l r => Host.dotGeneral dot_S16x4096x512_S16x512x512_S16x4096x512_2_1_1_2_0_0 none l r) : (⟨S16x4096x512, .f32⟩ : BufTy).Contents (Elt F) → (⟨S16x512x512, .f32⟩ : BufTy).Contents (Elt F) → (⟨S16x4096x512, .f32⟩ : BufTy).Contents (Elt F)) ]

set_option maxRecDepth 2048 in
/-- @main is that straight line: the called functions unfolded at the call and the sequencing reassociated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., binary_bufs_sub .., nullary_bufs_sub .., unary_bufs_sub ..,
    unary_bufs_sub .., unary_bufs_sub .., unary_bufs_sub .., binary_bufs_sub .., unary_bufs_sub .., unary_bufs_sub ..,
    unary_bufs_sub .., binary_bufs_sub .., binary_bufs_sub .., unary_bufs_sub .., binary_bufs_sub ..⟩

attribute [local irreducible] Host.reduceWindow in
/-- The product's buffer after the seventeen operations (the running sum kept folded: the equation never looks inside it). -/
theorem ys_eq (V : Valuation τ sig (Elt F)) :
    after ops V (main_v14 : DevRef τ sig) = refYs (F := F) (V (main_arg0 : DevRef τ sig)) (V (main_arg1 : DevRef τ sig)) := by
  unfold refYs refMap starts ends frames spread
  after_results
  rfl

attribute [local irreducible] Host.reduceWindow in
/-- The matrix's buffer after them. -/
theorem map_eq (V : Valuation τ sig (Elt F)) :
    after ops V (main_v13 : DevRef τ sig) = refMap (F := F) (V (main_arg1 : DevRef τ sig)) := by
  unfold refMap starts ends frames spread
  after_results
  rfl

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

/-- On every device, from any memory with zero counters: every weakly fair execution of @main terminates with the two
    results at the reference's composed terms of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refYs (F := F) (m ((c.tc : Thread nD τ).loc main_arg0)) (m ((c.tc : Thread nD τ).loc main_arg1))
      ∧ r.2.mem ((c.tc : Thread nD τ).loc main_v13) = refMap (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v14).trans (ys_eq _),
      (h c main_v13).trans (map_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.HandRun

end
-- ==== Proof.RefValue.lean ====
/-
  The reference's two results, entry by entry, are the specification.

  The frame counter spread over the batch and token axes reads, at (b, f, t), the word of f; a per-token word spread
  over the frame axis reads the token's word.  So the reference's matrix at (b, f, t) is the bit "start(b, t) ≤ f <
  end(b, t)" as a number, and its batched product with the embeddings at (b, f, d) is the sum over tokens of that bit
  times the embedding's entry (b, t, d).
-/
import proofs.«103358_j19825569038381_2_alg».proof.Proof.RefRun
import proofs.«103358_j19825569038381_2_alg».proof.Proof.Spec
import proofs.«103358_j19825569038381_2_alg».proof.Proof.LibHostMid3
import proofs.«103358_j19825569038381_2_alg».proof.Proof.LibFrameAxis

noncomputable section

open scoped BigOperators

namespace Cert.ReferenceIdeal.RefValue

open Cert.ReferenceIdeal Cert.ReferenceIdeal.HandRun Idealize.ShloMosaic Idealize.ShloMosaic.ValueIdx Cert.LengthReg

/-- The spread frame counter at (b, f, t) is the word of f. -/
theorem frames_apply (b : Fin 16) (f : Fin 4096) (t : Fin 512) : frames (ix3 b f t) = BitVec.ofNat 32 f.val := by
  unfold frames
  exact Cert.Lib.FrameAxis.bcast_n_bnk _ rfl _ rfl rfl rfl _ _ _ b f t

/-- A per-token word spread over the frames reads the token's word. -/
theorem spread_apply (v : IVec S16x512 32) (b : Fin 16) (f : Fin 4096) (t : Fin 512) :
    spread v (ix3 b f t) = v (ix2 b t) :=
  Cert.Lib.HostMid3.bcast_bk_bnk _ rfl rfl _ rfl rfl rfl _ _ v b f t

/-- The reference's matrix is the specification's. -/
theorem refMap_eq (d : IVec S16x512 32) : refMap (F := Ideal) d = mapG (starts d) (ends d) := by
  funext j
  obtain ⟨b, f, t, rfl⟩ : ∃ (b : Fin 16) (f : Fin 4096) (t : Fin 512), j = ix3 b f t := ⟨j 0, j 1, j 2, eq_ix3 j⟩
  rw [mapG_ix3]
  unfold refMap mapAt bit
  show (((IntOp.andi (IntOp.cmpi .sge (frames (ix3 b f t)) (spread (starts d) (ix3 b f t)))
      (IntOp.cmpi .slt (frames (ix3 b f t)) (spread (ends d) (ix3 b f t)))).toNat : ℝ) : EReal) = _
  rw [frames_apply, spread_apply, spread_apply]

/-- The reference's product is the specification's. -/
theorem refYs_eq (x : FVec Ideal S16x512x512 .f32) (d : IVec S16x512 32) :
    refYs (F := Ideal) x d = ysG (starts d) (ends d) x := by
  funext j
  obtain ⟨b, f, c, rfl⟩ : ∃ (b : Fin 16) (f : Fin 4096) (c : Fin 512), j = ix3 b f c := ⟨j 0, j 1, j 2, eq_ix3 j⟩
  rw [ysG_ix3]
  unfold refYs ysAt
  refine (Cert.Lib.HostMid3.bmt_apply _ rfl rfl rfl rfl rfl rfl none .single _ x b f c).trans ?_
  refine Finset.sum_congr rfl fun t _ => ?_
  rw [refMap_eq, mapG_ix3]

end Cert.ReferenceIdeal.RefValue

end
-- ==== Proof.LibFiniteAll.lean ====
/-
  "Every entry is finite", read.

  A precondition `jnp.all(jnp.abs(x) < inf)` prints as the `and`-reduction, over all axes and from the bit 1, of the
  comparisons of |x| with the word of +∞.  If the reduction is 1 every comparison is 1; on the extended reals
  max(x, −x) < +∞ excludes both infinities, so every entry is the real number it denotes.  Stated for any shape and
  any list of reduced axes.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteAll

open Idealize.ShloMosaic

/-- The word 0x7F800000 is +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : x = ((x.toReal : ℝ) : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  have h1 : x ≠ ⊤ := by
    rintro rfl
    exact absurd hlt (by simp)
  have h2 : x ≠ ⊥ := by
    rintro rfl
    exact absurd hlt (by simp)
  exact (EReal.coe_toReal h1 h2).symm

/-- The rank-zero shape has one index. -/
instance : Subsingleton (⟨0, ![]⟩ : Shape).Idx := ⟨fun a b => funext fun d => d.elim0⟩

/-- One argument's test: if "all entries have |x| < +∞" is 1, every entry is a real number. -/
theorem real_of_all {s : Shape} {axes : List (Fin s.rank)} (x : FVec Ideal s .f32)
    (hbc : (⟨0, ![]⟩ : Shape).BroadcastsInDim s (![] : Fin 0 → Fin s.rank)) (red : s.ReducesTo axes ⟨0, ![]⟩)
    (hu : 0 < (⟨0, ![]⟩ : Shape).numel)
    (h : Host.reduce IntOp.andi
          (cmpf .olt (Host.absf x) (broadcastInDim s ![] hbc (constant (F := Ideal) ⟨0, ![]⟩ .f32 0x7F800000#32)))
          (constantI ⟨0, ![]⟩ 1 1#1) red hu ValueIdx.ix0 = 1#1) (i : s.Idx) :
    x i = (((x i).toReal : ℝ) : EReal) := by
  have hi : Ideal.cmp .olt (max (x i) (-(x i)))
      (broadcastInDim s ![] hbc (constant (F := Ideal) ⟨0, ![]⟩ .f32 0x7F800000#32) i) = 1#1 :=
    Host.reduce_andi_all _ _ red hu ValueIdx.ix0 h i
  have hb : broadcastInDim s ![] hbc (constant (F := Ideal) ⟨0, ![]⟩ .f32 0x7F800000#32) i = ⊤ :=
    (broadcastInDim_apply _ hbc _ i (fun a => a.elim0) (fun a => a.elim0)).trans inf_word
  rw [hb] at hi
  exact real_of_abs_lt (x i) hi

end Cert.LibFiniteAll

end
-- ==== Proof.Finite.lean ====
/-
  The precondition, read: if the test "every |x| is below +∞" is all ones, every embedding is a real number.
-/
import proofs.«103358_j19825569038381_2_alg».proof.Pre_finite_inputs
import proofs.«103358_j19825569038381_2_alg».proof.Proof.LibFiniteAll

noncomputable section

namespace Cert.LengthReg.Finite

open Idealize.ShloMosaic

/-- Under the precondition every entry of the embeddings is the real number it denotes. -/
theorem real_of_pre [Cert.Pre_finite_inputs.Facts] (x : FVec Ideal Cert.Pre_finite_inputs.S16x512x512 .f32)
    (d : IVec Cert.Pre_finite_inputs.S16x512 32)
    (h : Cert.Pre_finite_inputs.fn (F := Ideal) x d = fun _ => 1#1) (i : Cert.Pre_finite_inputs.S16x512x512.Idx) :
    x i = (((x i).toReal : ℝ) : EReal) := by
  have h1 := congrFun h ValueIdx.ix0
  exact Cert.LibFiniteAll.real_of_all x Cert.Pre_finite_inputs.Facts.bcast_S_S16x512x512
    Cert.Pre_finite_inputs.Facts.reducesTo_S16x512x512_S_d0_1_2 Cert.Pre_finite_inputs.Facts.h_S_ h1 i

end Cert.LengthReg.Finite

end
-- ==== Proof.lean ====
/-
  The length regulator (duration-based frame expansion): the kernel's two results are the reference's.

  Both programs first turn the integer durations into per-token frame ranges [start, end) by a running sum.  The
  reference builds the 0/1 expansion matrix map(b, f, t) = [start(b, t) ≤ f < end(b, t)] for all 4096 frames and
  applies it to the embeddings with one batched matrix product.  The kernel walks a grid of 16 batch elements by 2
  frame tiles; at a batch element's first tile it keeps the embeddings xs and the remainder xs − bf16(xs) in two
  scratch buffers, and at every tile it writes the tile of the matrix and the sum of the tile's products with both
  scratch buffers.  Read on the extended reals a change of float format is the identity, so the first scratch is xs
  and the second is xs − xs, which is 0 because the precondition makes every embedding a real number; the second
  product vanishes and the first is the reference's sum restricted to the tile.  The 32 tiles cover both outputs.

  The frames of the two kernel programs are the generated ones; the reference's frame is its run with the results
  dropped; the one rewrite of the ideal pass (a round trip through bf16 removed) is the rule's own statement.
-/
import proofs.«103358_j19825569038381_2_alg».proof.Defs
import proofs.«103358_j19825569038381_2_alg».proof.Proof.Gen.Kernel
import proofs.«103358_j19825569038381_2_alg».proof.Proof.Gen.Kernel.Skeleton
import proofs.«103358_j19825569038381_2_alg».proof.Proof.Gen.Kernel.Launch
import proofs.«103358_j19825569038381_2_alg».proof.Proof.Gen.Kernel.Points
import proofs.«103358_j19825569038381_2_alg».proof.Proof.Gen.Kernel.Frame
import proofs.«103358_j19825569038381_2_alg».proof.Proof.Gen.KernelIdeal
import proofs.«103358_j19825569038381_2_alg».proof.Proof.Gen.KernelIdeal.Skeleton
import proofs.«103358_j19825569038381_2_alg».proof.Proof.Gen.KernelIdeal.Launch
import proofs.«103358_j19825569038381_2_alg».proof.Proof.Gen.KernelIdeal.Points
import proofs.«103358_j19825569038381_2_alg».proof.Proof.Gen.KernelIdeal.Frame
import proofs.«103358_j19825569038381_2_alg».proof.Proof.Gen.KernelIdeal.Value
import proofs.«103358_j19825569038381_2_alg».proof.Proof.Gen.ReferenceIdeal
import proofs.«103358_j19825569038381_2_alg».proof.Proof.Gen.Pre_finite_inputs
import proofs.«103358_j19825569038381_2_alg».proof.Proof.KernelBlocks
import proofs.«103358_j19825569038381_2_alg».proof.Proof.RefValue
import proofs.«103358_j19825569038381_2_alg».proof.Proof.Finite
import Idealize.ShloMosaic.Adequacy
import Idealize.ShloMosaic.Init

noncomputable section

namespace Cert.Proof

open Idealize.ShloMosaic Idealize.SL.Sem Cert.LengthReg

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.HandRun.run (F := Ideal) m ρ)

/-- The ideal pass removed one round trip f32 → bf16 → f32: the rule's statement at that shape and those formats. -/
theorem preserves : Cert.preserves_Kernel_KernelIdeal := IdealRules.truncf_extf.statement _ .f32 .bf16

/-- Both programs end with the specification's output and matrix of arguments that agree: the kernel by its blocks
    (every embedding a real number, by the precondition), the reference entry by entry; the two running sums are one
    term. -/
theorem algebraic : Cert.algebraic_KernelIdeal_ReferenceIdeal := by
  intro m ρ m' ρ' hpre hagree
  have hx : ∀ c i, Cert.KernelIdeal.Blocks.xs m c i = (((Cert.KernelIdeal.Blocks.xs m c i).toReal : ℝ) : EReal) :=
    fun c i => Cert.LengthReg.Finite.real_of_pre _ _ (hpre c) i
  refine ⟨fun c => ysG (Cert.KernelIdeal.HostSide.kStarts (Cert.KernelIdeal.Blocks.dur m c))
      (Cert.KernelIdeal.HostSide.kEnds (Cert.KernelIdeal.Blocks.dur m c)) (Cert.KernelIdeal.Blocks.xs m c),
    fun c => mapG (Cert.KernelIdeal.HostSide.kStarts (Cert.KernelIdeal.Blocks.dur m c))
      (Cert.KernelIdeal.HostSide.kEnds (Cert.KernelIdeal.Blocks.dur m c)),
    Cert.KernelIdeal.Blocks.run m ρ hx, ?_⟩
  refine (θ_run Cert.ReferenceIdeal.defs _ _).mono (fun _ h c => ?_) (Cert.ReferenceIdeal.HandRun.run (F := Ideal) m' ρ')
  obtain ⟨h1, h2, h3, h4⟩ := h c
  refine ⟨h1.trans ?_, h2.trans ?_, h3, h4⟩
  · rw [(hagree c).1, (hagree c).2, Cert.ReferenceIdeal.RefValue.refYs_eq]
    rfl
  · rw [(hagree c).2, Cert.ReferenceIdeal.RefValue.refMap_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
